-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8x8x128 : Shape := ⟨3, ![8, 8, 128]⟩
abbrev S1024x256 : Shape := ⟨2, ![1024, 256]⟩
abbrev S512x256 : Shape := ⟨2, ![512, 256]⟩
abbrev S1024x1 : Shape := ⟨2, ![1024, 1]⟩
abbrev S1x512 : Shape := ⟨2, ![1, 512]⟩
abbrev S1x8x128 : Shape := ⟨3, ![1, 8, 128]⟩
abbrev S8x128 : Shape := ⟨2, ![8, 128]⟩
abbrev S1024x512 : Shape := ⟨2, ![1024, 512]⟩
abbrev S1024 : Shape := ⟨1, ![1024]⟩
abbrev S1 : Shape := ⟨1, ![1]⟩
abbrev S1x1 : Shape := ⟨2, ![1, 1]⟩
abbrev S8x1x1 : Shape := ⟨3, ![8, 1, 1]⟩
abbrev S8 : Shape := ⟨1, ![8]⟩

abbrev nBuf : Space → Nat
  | .hbm => 16
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8x8x128, .f32⟩
  | .hbm, ⟨10, _⟩ => ⟨S8x1x1, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1x8x128, .f32⟩
  | .local _ .vmem, ⟨13, _⟩ => ⟨S1x8x128, .f32⟩
  | .local _ .vmem, ⟨14, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x256_S8192_d1 : S8192x256.ReducesTo [1] S8192
  h_S_ : 0 < S_.numel
  shapeCasts_S8192_S8192x1 : S8192.ShapeCasts S8192x1
  shapeCasts_S8192_S1x8192 : S8192.ShapeCasts S1x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  natLt_1_32 : 1 < 32
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S8x8x128.size a
  hwx0_6 : ∀ i : grid0.Coords, EltTy.bits .f32 = 32 ∨ (Rect.block (s := S8x8x128) S1x8x128.size (cc0_transform_6 i) (hinb0_6 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S256x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Kit.lean ====
/-
  The contrastive-loss kernel's region seen from @main, at any float instance: the buffers' contents when the region is
  entered (after the host lines that square, row-sum and reshape the inputs), @main as those lines, the region and the
  lines after it, the one branch of the body (the accumulator is zeroed at the first column block of a row block) in
  closed form over the grid, the staging buffers the body is called with, and each input window's block at a point —
  which its staging buffer holds whether or not the point fetched it.
-/
import proofs.«133709_j1580547971173_1_alg».proof.Proof.Gen.Kernel.Launch
import proofs.«133709_j1580547971173_1_alg».proof.Proof.Gen.Kernel.Skeleton
import proofs.«133709_j1580547971173_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines before the region write neither argument. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The body's branch -/

/-- The body's one branch: the column-block coordinate is zero. -/
abbrev cond0 (i : grid0.Coords) : Prop := (Scalar.cmpi .ne (Scalar.extui (Scalar.cmpi .eq (BitVec.ofNat 32 (i 1).val) 0#32)) 0#32) = 1#1
/-- In row-major order over the 8 x 16 grid that is every sixteenth point. -/
theorem hcond0 : ∀ t : Fin cfg0.N, cond0 (grid0.coords t) ↔ t.val % 16 = 0 :=
  (by decide +kernel : ∀ t : Fin grid0.N, cond0 (grid0.coords t) ↔ t.val % 16 = 0)

/-- No window is idle at any point. -/
theorem liveAt (w : Fin cfg0.W) (t : Fin cfg0.N) : cfg0.idle w (grid0.coords t) = false := rfl

/-! ## The memrefs the body is called with -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
/-- The accumulator: a whole scoped buffer of the kernel's own, passed beside the windows. -/
abbrev scM : Memref sig .tc .vmem S8x128 .f32 := Memref.whole cc0_scratch0
/-- The accumulator as a view: what it holds is stated through it. -/
abbrev VS : View sig .tc .vmem S8x128 .f32 := scM.view
/-- One staging buffer of the output window, through which its contents are stated. -/
abbrev VO : View sig .tc .vmem S1x8x128 .f32 := (Memref.whole cc0_stg6_0 : Memref sig .tc .vmem S1x8x128 .f32).view

/-- The core's scoped buffers that are no staging buffer are the accumulator, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place: unfetched, the block index has
    not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the block index has
    not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the block index has
    not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the block index has
    not moved since the fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the block index has
    not moved since the fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place: unfetched, the block index has
    not moved since the fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.RunA.lean ====
/-
  The contrastive-loss kernel's body at a point of the FIRST column block of a row block, on any whole staging
  memrefs: the six inputs at their contents, the output's buffer and the accumulator at anything.  The body zeroes the
  accumulator, adds the tile's total into it and copies it to the output's buffer; it runs to the continuation holding
  the inputs as they were and the two written buffers with the stores' pieces, which the run finds.
-/
import proofs.«133709_j1580547971173_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's buffer and in the accumulator at a first column block, with the
    body's triple. -/
noncomputable def kernelRunA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i)
    (x0 : Vec F S1024x256 .f32) (x1 : Vec F S512x256 .f32) (x2 : Vec F S1024x1 .f32) (x3 : Vec F S1x512 .f32) (x4 : Vec F S1024x1 .i32) (x5 : Vec F S1x512 .i32) :
    Σ' (L6 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__contrast_kernel i arg2 harg2 arg3 harg3 arg4 harg4 arg5 harg5 arg6 harg6 arg7 harg7 arg8 harg8 arg9 harg9) K } := by
  refine ⟨?_, ?_, fun E K => ?run⟩
  case run =>
    simp only [cc0__contrast_kernel_eq_skeleton]; unfold cc0__contrast_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact HS

end Cert.Kernel.Hand

end
-- ==== Proof.K.RunB.lean ====
/-
  The contrastive-loss kernel's body at a point of a LATER column block of a row block, on any whole staging
  memrefs: the six inputs at their contents, the output's buffer at anything, the accumulator at the contents the point
  before left.  The body adds the tile's total into the accumulator and copies it to the output's buffer; it runs to
  the continuation holding the inputs as they were and the two written buffers with the stores' pieces, which the run
  finds.
-/
import proofs.«133709_j1580547971173_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's buffer and in the accumulator at a later column block, with the
    body's triple. -/
noncomputable def kernelRunB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i)
    (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) :
    Σ' (L6 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__contrast_kernel i arg2 harg2 arg3 harg3 arg4 harg4 arg5 harg5 arg6 harg6 arg7 harg7 arg8 harg8 arg9 harg9) K } := by
  refine ⟨?_, ?_, fun E K => ?run⟩
  case run =>
    simp only [cc0__contrast_kernel_eq_skeleton]; unfold cc0__contrast_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact HS

end Cert.Kernel.Hand

end
-- ==== Proof.K.Data.lean ====
/-
  The contrastive-loss kernel's proof data, at any float instance.  What the output's staging buffer and the accumulator
  hold after the body at each grid point, by recursion on the point in row-major order: at the first column block of a
  row block the body starts from a zeroed accumulator, at a later one from what the point before left.  The region's
  invariant holds the accumulator at those contents (at anything before the first point).  The two windows that read
  the input matrix hold the two halves of its share.  The body obligation follows from the two runs.
-/
import proofs.«133709_j1580547971173_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the body leaves in the output's staging buffer at a first column block: its pieces read back. -/
def outA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) : Vec F S1x8x128 .f32 :=
  VO.read (Elt F) (VO.writes (Elt F) VO.junk (kernelRunA c i arg2 harg2 arg3 harg3 arg4 harg4 arg5 harg5 arg6 harg6 arg7 harg7 arg8 harg8 arg9 harg9 hc x0 x1 x2 x3 x4 x5).1)
/-- The pieces tile the block. -/
theorem coverA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) (y : S1x8x128.Idx) :
    ∃ pc ∈ (kernelRunA c i arg2 harg2 arg3 harg3 arg4 harg4 arg5 harg5 arg6 harg6 arg7 harg7 arg8 harg8 arg9 harg9 hc x0 x1 x2 x3 x4 x5).1, y ∈ pc.1.set :=
  View.cover_of_tiledL (kernelRunA c i arg2 harg2 arg3 harg3 arg4 harg4 arg5 harg5 arg6 harg6 arg7 harg7 arg8 harg8 arg9 harg9 hc x0 x1 x2 x3 x4 x5).1 S1x8x128.size (by sl_kernel_rfl) y
/-- What it leaves in the accumulator. -/
def soutA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) : Vec F S8x128 .f32 :=
  VS.read (Elt F) (VS.writes (Elt F) VS.junk (kernelRunA c i arg2 harg2 arg3 harg3 arg4 harg4 arg5 harg5 arg6 harg6 arg7 harg7 arg8 harg8 arg9 harg9 hc x0 x1 x2 x3 x4 x5).2.1)
theorem scoverA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) (y : S8x128.Idx) :
    ∃ pc ∈ (kernelRunA c i arg2 harg2 arg3 harg3 arg4 harg4 arg5 harg5 arg6 harg6 arg7 harg7 arg8 harg8 arg9 harg9 hc x0 x1 x2 x3 x4 x5).2.1, y ∈ pc.1.set :=
  View.cover_of_tiledL (kernelRunA c i arg2 harg2 arg3 harg3 arg4 harg4 arg5 harg5 arg6 harg6 arg7 harg7 arg8 harg8 arg9 harg9 hc x0 x1 x2 x3 x4 x5).2.1 S8x128.size (by sl_kernel_rfl) y

/-- The same at a later column block, over the accumulator's contents `xs` found there. -/
def outB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) : Vec F S1x8x128 .f32 :=
  VO.read (Elt F) (VO.writes (Elt F) VO.junk (kernelRunB c i arg2 harg2 arg3 harg3 arg4 harg4 arg5 harg5 arg6 harg6 arg7 harg7 arg8 harg8 arg9 harg9 hc x0 x1 x2 x3 x4 x5 xs).1)
theorem coverB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) (y : S1x8x128.Idx) :
    ∃ pc ∈ (kernelRunB c i arg2 harg2 arg3 harg3 arg4 harg4 arg5 harg5 arg6 harg6 arg7 harg7 arg8 harg8 arg9 harg9 hc x0 x1 x2 x3 x4 x5 xs).1, y ∈ pc.1.set :=
  View.cover_of_tiledL (kernelRunB c i arg2 harg2 arg3 harg3 arg4 harg4 arg5 harg5 arg6 harg6 arg7 harg7 arg8 harg8 arg9 harg9 hc x0 x1 x2 x3 x4 x5 xs).1 S1x8x128.size (by sl_kernel_rfl) y
def soutB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) : Vec F S8x128 .f32 :=
  VS.read (Elt F) (VS.writes (Elt F) VS.junk (kernelRunB c i arg2 harg2 arg3 harg3 arg4 harg4 arg5 harg5 arg6 harg6 arg7 harg7 arg8 harg8 arg9 harg9 hc x0 x1 x2 x3 x4 x5 xs).2.1)
theorem scoverB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) (y : S8x128.Idx) :
    ∃ pc ∈ (kernelRunB c i arg2 harg2 arg3 harg3 arg4 harg4 arg5 harg5 arg6 harg6 arg7 harg7 arg8 harg8 arg9 harg9 hc x0 x1 x2 x3 x4 x5 xs).2.1, y ∈ pc.1.set :=
  View.cover_of_tiledL (kernelRunB c i arg2 harg2 arg3 harg3 arg4 harg4 arg5 harg5 arg6 harg6 arg7 harg7 arg8 harg8 arg9 harg9 hc x0 x1 x2 x3 x4 x5 xs).2.1 S8x128.size (by sl_kernel_rfl) y

/-! ## Point by point -/

/-- The output's buffer and the accumulator after the body at a point of a first column block. -/
def ptA (c : Dev nD) (t : Fin cfg0.N) (h0 : t.val % 16 = 0) : Vec F S1x8x128 .f32 × Vec F S8x128 .f32 :=
  (outA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t),
   soutA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
/-- The same at a later column block, the accumulator found at `xs`. -/
def ptB (c : Dev nD) (t : Fin cfg0.N) (h0 : ¬t.val % 16 = 0) (xs : Vec F S8x128 .f32) : Vec F S1x8x128 .f32 × Vec F S8x128 .f32 :=
  (outB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) xs,
   soutB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) xs)

/-- THE ACCUMULATION: what the output's staging buffer and the accumulator hold after the body at position `n`. -/
def outsAt (c : Dev nD) : (n : ℕ) → n < cfg0.N → Vec F S1x8x128 .f32 × Vec F S8x128 .f32
  | 0, hn => ptA m c ⟨0, hn⟩ (Nat.zero_mod _)
  | n + 1, hn =>
    if h0 : (n + 1) % 16 = 0 then ptA m c ⟨n + 1, hn⟩ h0
    else ptB m c ⟨n + 1, hn⟩ h0 (outsAt c n (Nat.lt_of_succ_lt hn)).2

theorem outsAt_A (c : Dev nD) (t : Fin cfg0.N) (h0 : t.val % 16 = 0) : outsAt m c t.val t.isLt = ptA m c t h0 := by
  obtain ⟨n, hn⟩ := t
  cases n with
  | zero => exact rfl
  | succ n => exact (dif_pos h0).trans rfl

theorem outsAt_B (c : Dev nD) (t : Fin cfg0.N) (h0 : ¬t.val % 16 = 0) :
    outsAt m c t.val t.isLt = ptB m c t h0 (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The region's invariant before position `n`: the accumulator at anything before the first point, afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-- At any position the invariant holds the accumulator at some contents. -/
theorem PhiS_any (c : Dev nD) (n : ℕ) (h : n ≤ cfg0.N) : PhiS m c n h ⊢ iprop(∃ d, owns (c : Thread nD τ) scM fullShare d) := by
  cases n with
  | zero => exact Idealize.SL.BI.Entails.refl _
  | succ n => rw [PhiS_succ]; iintro H; iexists _; iexact H

/-! ## The proof data -/

/-- The proof data on core `c`: the arrays as the region finds them; after the body each input's buffer at its block and
    the output's at `outsAt`; the invariant `PhiS`; the input matrix's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4800000 in
/-- The body at any point: the inputs' buffers hold their blocks; the closed form says which case the point is in; the
    invariant hands the body the accumulator and takes it back at this point's contents; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4, after5, after6, PhiS_castSucc m c t]
  by_cases h0 : t.val % 16 = 0
  · rw [outsAt_A m c t h0]
    unfold ptA outA soutA; dsimp only
    iintro ⟨HS, Ho, ⟨%d0, H0⟩, ⟨%d1, H1⟩, ⟨%d2, H2⟩, ⟨%d3, H3⟩, ⟨%d4, H4⟩, ⟨%d5, H5⟩, ⟨%d6, H6⟩⟩
    ihave HS := (PhiS_any m c t.val (Nat.le_of_lt t.isLt)) $$ HS
    iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS]
    · unfold owns; iexists _; isplitr
      swap; · iexact HS
      ipureintro; exact View.read_writes_of_cover _ _ _ _ _ (scoverA c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA c _ _ _ _ _ _ _ _ _ _ _ _ _ _ _ _ _ _ _ _ _ _ _ _)
  · have hz : t.val ≠ 0 := fun e => h0 (by rw [e])
    rw [outsAt_B m c t h0, PhiS_pos m c _ _ hz]
    unfold ptB outB soutB; dsimp only
    iintro ⟨HS, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS]
    · unfold owns; iexists _; isplitr
      swap; · iexact HS
      ipureintro; exact View.read_writes_of_cover _ _ _ _ _ (scoverB c _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The accumulator at some contents is the invariant before the first point, -/
theorem hin (c : Dev nD) : (Pipeline.scopedRest (Ix := Unit) (Name := ℕ) (U := UR sig nD τ) (Lvl := ℕ) (Val := Elt F) spec0 c : sProp 𝕄) ⊢ (dats m 0 c).Φ 0 := by
  rw [scopedRest_eq, show (dats m 0 c).Φ 0 = PhiS m c 0 (Nat.zero_le _) from rfl]
  exact Idealize.SL.BI.Entails.refl _

/-- and the invariant after the last point gives it back, its named contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scopedRest_eq, show (dats m 0 c).Φ (Fin.last cfg0.N) = PhiS m c (Fin.last cfg0.N).val (Nat.le_of_lt_succ (Fin.last cfg0.N).isLt) from rfl]
  exact PhiS_any m c _ _

end Cert.Kernel.Hand

end
-- ==== Proof.LibSharedCarriedTail.lean ====
/-
  The frame run of a pipeline kernel whose input windows may SHARE an array and whose body CARRIES state between grid
  points, for an @main that goes on after the region with straight lines of host operations.

  One region on a static grid; the kernel has no semaphore or transfer of its own.  Several input windows may read one
  array, so the arrays are not pairwise distinct and the region's exit holds each window's array at that window's
  share.  The proof data's invariant is any family of propositions over the points: the certificate says how the
  core's scoped buffers that are no staging buffer, each at some contents, give the invariant before the first point
  (`hin`) and how the invariant after the last point gives them back (`hout`) — so a scratch accumulator may be held
  at named contents in between.  The lines after the region run within a set `S` of whole buffers at the full share:
  the certificate says how the exit's holdings yield `S` at a valuation `W` beside a remainder `R` the lines do not
  touch (`hexit`), and how `S` at the lines' result and `R` give the arrays back, with the bypassing buffers at the
  contents `V'` (`hback`).  Under those entailments, the entry split of the shared arrays, the body obligation and
  the shape of @main, every weakly fair execution terminates without fault, every array of the pipeline ends at what
  the proof data compute and every other unscoped buffer at `V'`.
-/
import Idealize.ShloMosaic.Lib.Pipeline.FrameSuffix

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN WITH SHARED INPUT ARRAYS, A CARRIED INVARIANT AND LINES AFTER THE REGION.  `hsplit`: how the buffers
    behind the arrays make the proof data's arrays at entry; `hin` / `hout`: the scoped rest into the invariant before
    the first point and out of the invariant after the last; `hexit` / `hback`: the lines' buffers `S` out of, and
    back into, the region's exit holdings.  Concludes `FramePost` at the contents `V'` after the lines. -/
theorem θ_run_frame_shared_carried_around (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V V' : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V
      (fun _ => chain (opss.map StableHlo.seq)))
    (hsplit : ∀ c, (arrBufs (Ix := Unit) (Name := ℕ) (U := UR sig nD τ) (Lvl := ℕ) (cfgs p).spec c (V c) : sProp 𝕄)
      ⊢ (dats p c).arrays ((dats p c).arrAt · 0))
    (hin : ∀ c, (scopedRest (Ix := Unit) (Name := ℕ) (U := UR sig nD τ) (Lvl := ℕ) (Val := Val) (cfgs p).spec c : sProp 𝕄)
      ⊢ (dats p c).Φ 0)
    (hout : ∀ c, (dats p c).Φ (Fin.last (cfgs p).N)
      ⊢ (scopedRest (Ix := Unit) (Name := ℕ) (U := UR sig nD τ) (Lvl := ℕ) (Val := Val) (cfgs p).spec c : sProp 𝕄))
    (S : Finset (DevRef τ sig)) (W : Dev nD → Valuation τ sig Val) (R : Dev nD → sProp 𝕄)
    (hsub : ∀ ops ∈ opss, ∀ op ∈ ops, op.bufs ⊆ S) (hfresh : ∀ ops ∈ opss, ∀ op ∈ ops, op.fresh = ∅)
    (hexit : ∀ c, iprop((dats p c).arrays ((dats p c).arrAt · (cfgs p).N)
          ∗ unscopedRest (Ix := Unit) (Name := ℕ) (U := UR sig nD τ) (Lvl := ℕ) (cfgs p).spec c (V c))
        ⊢ iprop((StableHlo.held (c.tc : Thread nD τ) S (W c) : sProp 𝕄) ∗ R c))
    (hback : ∀ c, iprop((StableHlo.held (c.tc : Thread nD τ) S (StableHlo.after opss.flatten (W c)) : sProp 𝕄) ∗ R c)
        ⊢ iprop((dats p c).arrays ((dats p c).arrAt · (cfgs p).N)
          ∗ unscopedRest (Ix := Unit) (Name := ℕ) (U := UR sig nD τ) (Lvl := ℕ) (cfgs p).spec c (V' c))) :
    θ_run (Pipeline.defs (fun q => Cfg.toPCfg (Val := Val) (cfgs q)) defs₀) (onTc main) (s₀ m g) (FramePost cfgs dats p V') := by
  classical
  exact θ_run_region_noSem_pf_tail (fun q => (cfgs q).toPCfg) (fun q => (cfgs q).toPCfg_adm) dats () hinj p hw (PreFacts.none _) emb₁
    defs₀ 𝒱₀ m g main (fun _ => chain (opss.map StableHlo.seq)) hbody hne harr hstage howed
    (u₀ := initOf (cells cfgs hinj) (launchToks cfgs hinj)) (hu₀ := .rfl)
    (V := V) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (V c))
    (Z' := fun c => unscopedRest (Ix := Unit) (Name := ℕ) (U := UR sig nD τ) (Lvl := ℕ) (cfgs p).spec c (V' c))
    (hX := fun c => by
      rw [unscopedRestP_none]
      iintro HU
      isplitr; · iempintro
      iexact HU)
    (hin := fun c => by
      iintro ⟨-, -, Hr⟩
      iapply (hin c)
      iexact Hr)
    (hout := fun c => by
      iintro Hr
      isplitr; · iempintro
      iapply (hout c)
      iexact Hr)
    (htail := fun c Q' => (sep_mono .rfl (sep_mono .rfl (hexit c))).trans (by
      rw [← List.append_nil (opss.map StableHlo.seq)]
      iintro ⟨Hk, Hb, Hh, HR⟩
      iapply (wp_seqs_then (fun q => (cfgs q).toPCfg (Val := Val)) defs₀ 𝒱₀ c S [] opss hsub hfresh (W c)) $$ [Hb Hh]
      · isplitl [Hb]; · iexact Hb
        iexact Hh
      iintro ⟨-, Hh⟩
      rw [chain_nil, wp_pure]
      imodintro
      iapply Hk
      iapply (hback c)
      isplitl [Hh]; · iexact Hh
      iexact HR))
    (QY := fun c s => ∀ b ∈ restRefs sig (cfgs p).spec, s.mem ((c.tc : Thread nD τ).loc b) = V' c b)
    (hY := fun c s' => by
      iintro ⟨-, HU, HSI⟩
      unfold unscopedRest
      imodintro
      iapply (pointsTo_read_all (restRefs sig (cfgs p).spec) (fun b => (c.tc : Thread nD τ).loc b) (V' c) s')
      isplitl [HU] <;> iassumption)
    (hQ := fun s h c => ⟨(h c).1, (h c).2.2⟩)

end Idealize.ShloMosaic.Pipeline

end
-- ==== Proof.K.Launch.lean ====
/-
  The contrastive-loss kernel's run, at any float instance.  The input matrix is read through two windows, so its
  buffer's full share is dealt in halves between them when the region is entered and put together again when it is
  left.  The lines after the region (take one entry per row block of the output, sum them, divide) run within the core's
  unscoped buffers: at the region's exit these are the output array at what the write-backs left and every other buffer
  as the region found it; the lines write six result buffers and no array.  So every weakly fair execution terminates
  without fault, with each array at what the proof data compute and the other buffers at the lines' results.
-/
import proofs.«133709_j1580547971173_1_alg».proof.Proof.K.Data
import proofs.«133709_j1580547971173_1_alg».proof.Proof.LibSharedCarriedTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The six distinct buffers behind the seven windows' arrays. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v2) ↦{fullShare} Vv main_v2) ∗ (((c : Thread nD τ).loc main_v3) ↦{fullShare} Vv main_v3) ∗ (((c : Thread nD τ).loc main_v4) ↦{fullShare} Vv main_v4) ∗ (((c : Thread nD τ).loc main_v5) ↦{fullShare} Vv main_v5) ∗ (((c : Thread nD τ).loc main_v6) ↦{fullShare} Vv main_v6)) := by
  unfold Pipeline.arrBufs
  exact bigSep_eq_bigSepL_of_eq [main_arg0, main_v2, main_v3, main_v4, main_v5, main_v6] (by decide) (by decide) _

/-- The shares the proof data hold the arrays at: the input matrix's two windows a half each, every other array whole. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The proof data's arrays at contents `G`, window by window: the input matrix at a half share twice. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1) ∗ (((c : Thread nD τ).loc main_v2) ↦{fullShare} G 2) ∗ (((c : Thread nD τ).loc main_v3) ↦{fullShare} G 3) ∗ (((c : Thread nD τ).loc main_v4) ↦{fullShare} G 4) ∗ (((c : Thread nD τ).loc main_v5) ↦{fullShare} G 5) ∗ (((c : Thread nD τ).loc main_v6) ↦{fullShare} G 6)) := by
  have h : ((dats m 0 c).arrays G : sProp 𝕄)
      = bigSep Finset.univ fun w : Fin cfg0.W => ((((c : Thread nD τ).loc (Pipeline.arrRef spec0 w)) ↦{(dats m 0 c).share w} G w) : sProp 𝕄) := by
    unfold Dat.arrays
    exact bigSep_congr fun w _ => by rw [(arr_whole0 w).set_eq_univ]
  rw [h, bigSep_W0, share_0, share_1, share_2, share_3, share_4, share_5, share_6]

/-- An input's array is never written: it holds its entry contents throughout. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-! ## Entering the region -/

/-- The buffers behind the arrays, whole at the region-entry contents, are the proof data's arrays at entry: the input
    matrix's share split in halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, H2, H3, H4, H5, H6⟩
  ihave Ha := (pointsTo_share (PosShare.mem_left_op_right fullShare)).1 $$ Ha
  icases Ha with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-! ## Leaving the region: the lines after it -/

/-- The buffers' contents at the region's exit: the output array at what the write-backs left, every other buffer as the
    region found it. -/
def Wx (c : Dev nD) : Valuation τ sig (Elt F) :=
  Function.update (V0 m c) (Proc.devRef .tc main_v6) ((dats m 0 c).arrAt 6 cfg0.N)

theorem Wx_out (c : Dev nD) : Wx m c (Proc.devRef .tc main_v6) = (dats m 0 c).arrAt 6 cfg0.N := by
  unfold Wx; exact Function.update_self _ _ _

theorem Wx_of_ne (c : Dev nD) (b : Ref sig .tc) (hb : b ≠ main_v6) : Wx m c (Proc.devRef .tc b) = V m c b := by
  unfold Wx; exact Function.update_of_ne (StableHlo.devRef_ne_of_ne hb) _ _

/-- The buffers' contents after the lines that follow the region. -/
def V' (c : Dev nD) (b : Ref sig .tc) : Buf (Elt F) ((c : Thread nD τ).loc b) :=
  StableHlo.after (List.flatten [hostOps1]) (Wx m c) (Proc.devRef .tc b)

/-- The core's sixteen unscoped buffers held at a valuation, one by one. -/
theorem held_eq (c : Dev nD) (Wv : Valuation τ sig (Elt F)) :
    (StableHlo.held (c : Thread nD τ) (Pipeline.ucRefs τ sig) Wv : sProp 𝕄)
      = iprop((((c : Thread nD τ).loc main_arg0) ↦{fullShare} Wv (Proc.devRef .tc main_arg0)) ∗ (((c : Thread nD τ).loc main_v2) ↦{fullShare} Wv (Proc.devRef .tc main_v2)) ∗ (((c : Thread nD τ).loc main_v3) ↦{fullShare} Wv (Proc.devRef .tc main_v3)) ∗ (((c : Thread nD τ).loc main_v4) ↦{fullShare} Wv (Proc.devRef .tc main_v4)) ∗ (((c : Thread nD τ).loc main_v5) ↦{fullShare} Wv (Proc.devRef .tc main_v5)) ∗ (((c : Thread nD τ).loc main_v6) ↦{fullShare} Wv (Proc.devRef .tc main_v6)) ∗ (((c : Thread nD τ).loc main_arg1) ↦{fullShare} Wv (Proc.devRef .tc main_arg1)) ∗ (((c : Thread nD τ).loc main_v0) ↦{fullShare} Wv (Proc.devRef .tc main_v0)) ∗ (((c : Thread nD τ).loc main_cst) ↦{fullShare} Wv (Proc.devRef .tc main_cst)) ∗ (((c : Thread nD τ).loc main_v1) ↦{fullShare} Wv (Proc.devRef .tc main_v1)) ∗ (((c : Thread nD τ).loc main_v7) ↦{fullShare} Wv (Proc.devRef .tc main_v7)) ∗ (((c : Thread nD τ).loc main_v8) ↦{fullShare} Wv (Proc.devRef .tc main_v8)) ∗ (((c : Thread nD τ).loc main_cst_0) ↦{fullShare} Wv (Proc.devRef .tc main_cst_0)) ∗ (((c : Thread nD τ).loc main_v9) ↦{fullShare} Wv (Proc.devRef .tc main_v9)) ∗ (((c : Thread nD τ).loc main_cst_1) ↦{fullShare} Wv (Proc.devRef .tc main_cst_1)) ∗ (((c : Thread nD τ).loc main_v10) ↦{fullShare} Wv (Proc.devRef .tc main_v10))) := by
  unfold StableHlo.held
  exact bigSep_eq_bigSepL_of_eq [Proc.devRef .tc main_arg0, Proc.devRef .tc main_v2, Proc.devRef .tc main_v3, Proc.devRef .tc main_v4, Proc.devRef .tc main_v5, Proc.devRef .tc main_v6, Proc.devRef .tc main_arg1, Proc.devRef .tc main_v0, Proc.devRef .tc main_cst, Proc.devRef .tc main_v1, Proc.devRef .tc main_v7, Proc.devRef .tc main_v8, Proc.devRef .tc main_cst_0, Proc.devRef .tc main_v9, Proc.devRef .tc main_cst_1, Proc.devRef .tc main_v10] (by decide) (by decide) _

/-- The lines after the region touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The lines after the region write none of the arrays: each holds after them what it held at the exit. -/
theorem keep_main_arg0 (c : Dev nD) :
    StableHlo.after (List.flatten [hostOps1]) (Wx m c) (Proc.devRef .tc main_arg0) = Wx m c (Proc.devRef .tc main_arg0) := by
  simp only [hostOps1, List.flatten_cons, List.flatten_nil, List.append_nil]; after_results
theorem keep_main_v2 (c : Dev nD) :
    StableHlo.after (List.flatten [hostOps1]) (Wx m c) (Proc.devRef .tc main_v2) = Wx m c (Proc.devRef .tc main_v2) := by
  simp only [hostOps1, List.flatten_cons, List.flatten_nil, List.append_nil]; after_results
theorem keep_main_v3 (c : Dev nD) :
    StableHlo.after (List.flatten [hostOps1]) (Wx m c) (Proc.devRef .tc main_v3) = Wx m c (Proc.devRef .tc main_v3) := by
  simp only [hostOps1, List.flatten_cons, List.flatten_nil, List.append_nil]; after_results
theorem keep_main_v4 (c : Dev nD) :
    StableHlo.after (List.flatten [hostOps1]) (Wx m c) (Proc.devRef .tc main_v4) = Wx m c (Proc.devRef .tc main_v4) := by
  simp only [hostOps1, List.flatten_cons, List.flatten_nil, List.append_nil]; after_results
theorem keep_main_v5 (c : Dev nD) :
    StableHlo.after (List.flatten [hostOps1]) (Wx m c) (Proc.devRef .tc main_v5) = Wx m c (Proc.devRef .tc main_v5) := by
  simp only [hostOps1, List.flatten_cons, List.flatten_nil, List.append_nil]; after_results
theorem keep_main_v6 (c : Dev nD) :
    StableHlo.after (List.flatten [hostOps1]) (Wx m c) (Proc.devRef .tc main_v6) = Wx m c (Proc.devRef .tc main_v6) := by
  simp only [hostOps1, List.flatten_cons, List.flatten_nil, List.append_nil]; after_results

/-- At the exit the arrays and the bypassing buffers are the unscoped buffers held at the exit contents: the input
    matrix's halves put together. -/
theorem hexit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ iprop((StableHlo.held (c : Thread nD τ) (Pipeline.ucRefs τ sig) (Wx m c) : sProp 𝕄) ∗ (iprop(emp) : sProp 𝕄)) := by
  rw [held_eq, arrays_eq, unscopedRest0_eq, Wx_out]
  rw [Wx_of_ne m c main_arg0 (by decide), Wx_of_ne m c main_v2 (by decide), Wx_of_ne m c main_v3 (by decide), Wx_of_ne m c main_v4 (by decide), Wx_of_ne m c main_v5 (by decide)]
  rw [Wx_of_ne m c main_arg1 (by decide), Wx_of_ne m c main_v0 (by decide), Wx_of_ne m c main_cst (by decide), Wx_of_ne m c main_v1 (by decide), Wx_of_ne m c main_v7 (by decide), Wx_of_ne m c main_v8 (by decide), Wx_of_ne m c main_cst_0 (by decide), Wx_of_ne m c main_v9 (by decide), Wx_of_ne m c main_cst_1 (by decide), Wx_of_ne m c main_v10 (by decide)]
  rw [arrAt_in m c 0 rfl, arrAt_in m c 1 rfl, arrAt_in m c 2 rfl, arrAt_in m c 3 rfl, arrAt_in m c 4 rfl, arrAt_in m c 5 rfl]
  iintro ⟨⟨Hl, Hr, H2, H3, H4, H5, H6⟩, ⟨Ha1, Hv0, Hcst, Hv1, Hv7, Hv8, Hc0, Hv9, Hc1, Hv10⟩⟩
  ihave Ha := (pointsTo_share (PosShare.mem_left_op_right fullShare)).2 $$ [Hl Hr]
  · isplitl [Hl]; · iexact Hl
    iexact Hr
  isplitl [Ha H2 H3 H4 H5 H6 Ha1 Hv0 Hcst Hv1 Hv7 Hv8 Hc0 Hv9 Hc1 Hv10]; swap; · iempintro
  isplitl [Ha]; · iexact Ha
  isplitl [H2]; · iexact H2
  isplitl [H3]; · iexact H3
  isplitl [H4]; · iexact H4
  isplitl [H5]; · iexact H5
  isplitl [H6]; · iexact H6
  isplitl [Ha1]; · iexact Ha1
  isplitl [Hv0]; · iexact Hv0
  isplitl [Hcst]; · iexact Hcst
  isplitl [Hv1]; · iexact Hv1
  isplitl [Hv7]; · iexact Hv7
  isplitl [Hv8]; · iexact Hv8
  isplitl [Hc0]; · iexact Hc0
  isplitl [Hv9]; · iexact Hv9
  isplitl [Hc1]; · iexact Hc1
  iexact Hv10

/-- After the lines the unscoped buffers held at the lines' results give the arrays back as the exit had them (the
    lines write none) — the input matrix's share in halves again — and the bypassing buffers at the lines' results. -/
theorem hback (c : Dev nD) :
    iprop((StableHlo.held (c : Thread nD τ) (Pipeline.ucRefs τ sig) (StableHlo.after (List.flatten [hostOps1]) (Wx m c)) : sProp 𝕄) ∗ (iprop(emp) : sProp 𝕄))
      ⊢ iprop((dats m 0 c).arrays ((dats m 0 c).arrAt · cfg0.N)
        ∗ Pipeline.unscopedRest (Ix := Unit) (Name := ℕ) (U := UR sig nD τ) (Lvl := ℕ) spec0 c (V' m c)) := by
  rw [held_eq, arrays_eq, unscopedRest0_eq]
  rw [keep_main_arg0, keep_main_v2, keep_main_v3, keep_main_v4, keep_main_v5, keep_main_v6, Wx_out]
  rw [Wx_of_ne m c main_arg0 (by decide), Wx_of_ne m c main_v2 (by decide), Wx_of_ne m c main_v3 (by decide), Wx_of_ne m c main_v4 (by decide), Wx_of_ne m c main_v5 (by decide)]
  rw [arrAt_in m c 0 rfl, arrAt_in m c 1 rfl, arrAt_in m c 2 rfl, arrAt_in m c 3 rfl, arrAt_in m c 4 rfl, arrAt_in m c 5 rfl]
  unfold V'
  iintro ⟨⟨Ha, H2, H3, H4, H5, H6, Ha1, Hv0, Hcst, Hv1, Hv7, Hv8, Hc0, Hv9, Hc1, Hv10⟩, -⟩
  ihave Ha := (pointsTo_share (PosShare.mem_left_op_right fullShare)).1 $$ Ha
  icases Ha with ⟨Hl, Hr⟩
  isplitl [Hl Hr H2 H3 H4 H5 H6]
  · isplitl [Hl]; · iexact Hl
    isplitl [Hr]; · iexact Hr
    isplitl [H2]; · iexact H2
    isplitl [H3]; · iexact H3
    isplitl [H4]; · iexact H4
    isplitl [H5]; · iexact H5
    iexact H6
  isplitl [Ha1]; · iexact Ha1
  isplitl [Hv0]; · iexact Hv0
  isplitl [Hcst]; · iexact Hcst
  isplitl [Hv1]; · iexact Hv1
  isplitl [Hv7]; · iexact Hv7
  isplitl [Hv8]; · iexact Hv8
  isplitl [Hc0]; · iexact Hc0
  isplitl [Hv9]; · iexact Hv9
  isplitl [Hc1]; · iexact Hc1
  iexact Hv10

/-! ## The run and the frame -/

set_option backward.isDefEq.respectTransparency.types false in
/-- At the compiled mesh, for any values, from any memory with zero counters: every weakly fair execution of @main
    terminates without fault, and every final state has each array of the pipeline at what the proof data compute and
    every other unscoped buffer at what the lines after the region leave. -/
theorem run_main : θ_run defs (onTc (τ := τ) (main (F := F))) (s₀ m ρ) (Pipeline.FramePost cfgs (dats m) 0 (V' m)) :=
  Pipeline.θ_run_frame_shared_carried_around cfgs (dats m) (0 : Fin 1) cellOf_inj winFacts₀0 block_pos0 arr_whole0 stage_whole0
    defs₀ Variants.none m ρ main
    (hbody := fun c => (body_obligation m c).loose) (howed := fun _ _ => rfl)
    (V := V m) (V' := V' m) (opss := [hostOps1]) (hmain := hmain m Variants.none)
    (hsplit := hsplit m) (hin := hin m) (hout := hout m)
    (S := Pipeline.ucRefs τ sig) (W := Wx m) (R := fun _ => iprop(emp))
    (hsub := sfx_sub) (hfresh := sfx_fresh) (hexit := hexit m) (hback := hback m)

/-- The lines after the region write neither argument. -/
theorem V'_main_arg1 (c : Dev nD) : V' m c main_arg1 = m ((c : Thread nD τ).loc main_arg1) := by
  have e : V' m c main_arg1 = Wx m c (Proc.devRef .tc main_arg1) := by
    unfold V'; simp only [hostOps1, List.flatten_cons, List.flatten_nil, List.append_nil]; after_results
  rw [e, Wx_of_ne m c main_arg1 (by decide), V_main_arg1]

/-- THE FRAME: the program runs to the end, faults nowhere, and leaves both argument arrays as it found them — the
    matrix because an input's array is never written, the labels because no line after the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((arrAt_in m c 0 rfl _).trans (V_main_arg0 m c)),
     ((h c).2 main_arg1 (Pipeline.mem_restRefs_of main_arg1 rfl (by decide))).trans (V'_main_arg1 m c)⟩) (run_main m ρ)

end Cert.Kernel.Hand

end
-- ==== Proof.KI.Kit.lean ====
/-
  The contrastive-loss kernel's region seen from @main, at any float instance: the buffers' contents when the region is
  entered (after the host lines that square, row-sum and reshape the inputs), @main as those lines, the region and the
  lines after it, the one branch of the body (the accumulator is zeroed at the first column block of a row block) in
  closed form over the grid, the staging buffers the body is called with, and each input window's block at a point —
  which its staging buffer holds whether or not the point fetched it.
-/
import proofs.«133709_j1580547971173_1_alg».proof.Proof.Gen.KernelIdeal.Launch
import proofs.«133709_j1580547971173_1_alg».proof.Proof.Gen.KernelIdeal.Skeleton
import proofs.«133709_j1580547971173_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines before the region write neither argument. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The body's branch -/

/-- The body's one branch: the column-block coordinate is zero. -/
abbrev cond0 (i : grid0.Coords) : Prop := (Scalar.cmpi .ne (Scalar.extui (Scalar.cmpi .eq (BitVec.ofNat 32 (i 1).val) 0#32)) 0#32) = 1#1
/-- In row-major order over the 8 x 16 grid that is every sixteenth point. -/
theorem hcond0 : ∀ t : Fin cfg0.N, cond0 (grid0.coords t) ↔ t.val % 16 = 0 :=
  (by decide +kernel : ∀ t : Fin grid0.N, cond0 (grid0.coords t) ↔ t.val % 16 = 0)

/-- No window is idle at any point. -/
theorem liveAt (w : Fin cfg0.W) (t : Fin cfg0.N) : cfg0.idle w (grid0.coords t) = false := rfl

/-! ## The memrefs the body is called with -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x128 .f32 := win0_6.stage (cfg0.slots t 6)
abbrev hs6 (t : Fin cfg0.N) : (ms6 t).IsWhole := hstage0_6 ((cfg0.slots t 6).cast nbuf0_6)
/-- The accumulator: a whole scoped buffer of the kernel's own, passed beside the windows. -/
abbrev scM : Memref sig .tc .vmem S8x128 .f32 := Memref.whole cc0_scratch0
/-- The accumulator as a view: what it holds is stated through it. -/
abbrev VS : View sig .tc .vmem S8x128 .f32 := scM.view
/-- One staging buffer of the output window, through which its contents are stated. -/
abbrev VO : View sig .tc .vmem S1x8x128 .f32 := (Memref.whole cc0_stg6_0 : Memref sig .tc .vmem S1x8x128 .f32).view

/-- The core's scoped buffers that are no staging buffer are the accumulator, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place: unfetched, the block index has
    not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place: unfetched, the block index has
    not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place: unfetched, the block index has
    not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place: unfetched, the block index has
    not moved since the fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents and whose body leaves the block in place: unfetched, the block index has
    not moved since the fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents and whose body leaves the block in place: unfetched, the block index has
    not moved since the fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.RunA.lean ====
/-
  The contrastive-loss kernel's body at a point of the FIRST column block of a row block, on any whole staging
  memrefs: the six inputs at their contents, the output's buffer and the accumulator at anything.  The body zeroes the
  accumulator, adds the tile's total into it and copies it to the output's buffer; it runs to the continuation holding
  the inputs as they were and the two written buffers with the stores' pieces, which the run finds.
-/
import proofs.«133709_j1580547971173_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's buffer and in the accumulator at a first column block, with the
    body's triple. -/
noncomputable def kernelRunA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i)
    (x0 : Vec F S1024x256 .f32) (x1 : Vec F S512x256 .f32) (x2 : Vec F S1024x1 .f32) (x3 : Vec F S1x512 .f32) (x4 : Vec F S1024x1 .i32) (x5 : Vec F S1x512 .i32) :
    Σ' (L6 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__contrast_kernel i arg2 harg2 arg3 harg3 arg4 harg4 arg5 harg5 arg6 harg6 arg7 harg7 arg8 harg8 arg9 harg9) K } := by
  refine ⟨?_, ?_, fun E K => ?run⟩
  case run =>
    simp only [cc0__contrast_kernel_eq_skeleton]; unfold cc0__contrast_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact HS

end Cert.KernelIdeal.Hand

end
-- ==== Proof.KI.RunB.lean ====
/-
  The contrastive-loss kernel's body at a point of a LATER column block of a row block, on any whole staging
  memrefs: the six inputs at their contents, the output's buffer at anything, the accumulator at the contents the point
  before left.  The body adds the tile's total into the accumulator and copies it to the output's buffer; it runs to
  the continuation holding the inputs as they were and the two written buffers with the stores' pieces, which the run
  finds.
-/
import proofs.«133709_j1580547971173_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's buffer and in the accumulator at a later column block, with the
    body's triple. -/
noncomputable def kernelRunB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i)
    (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) :
    Σ' (L6 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc0__contrast_kernel i arg2 harg2 arg3 harg3 arg4 harg4 arg5 harg5 arg6 harg6 arg7 harg7 arg8 harg8 arg9 harg9) K } := by
  refine ⟨?_, ?_, fun E K => ?run⟩
  case run =>
    simp only [cc0__contrast_kernel_eq_skeleton]; unfold cc0__contrast_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    iexists _; iexact HS

end Cert.KernelIdeal.Hand

end
-- ==== Proof.KI.Data.lean ====
/-
  The contrastive-loss kernel's proof data, at any float instance.  What the output's staging buffer and the accumulator
  hold after the body at each grid point, by recursion on the point in row-major order: at the first column block of a
  row block the body starts from a zeroed accumulator, at a later one from what the point before left.  The region's
  invariant holds the accumulator at those contents (at anything before the first point).  The two windows that read
  the input matrix hold the two halves of its share.  The body obligation follows from the two runs.
-/
import proofs.«133709_j1580547971173_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the body leaves in the output's staging buffer at a first column block: its pieces read back. -/
def outA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) : Vec F S1x8x128 .f32 :=
  VO.read (Elt F) (VO.writes (Elt F) VO.junk (kernelRunA c i arg2 harg2 arg3 harg3 arg4 harg4 arg5 harg5 arg6 harg6 arg7 harg7 arg8 harg8 arg9 harg9 hc x0 x1 x2 x3 x4 x5).1)
/-- The pieces tile the block. -/
theorem coverA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) (y : S1x8x128.Idx) :
    ∃ pc ∈ (kernelRunA c i arg2 harg2 arg3 harg3 arg4 harg4 arg5 harg5 arg6 harg6 arg7 harg7 arg8 harg8 arg9 harg9 hc x0 x1 x2 x3 x4 x5).1, y ∈ pc.1.set :=
  View.cover_of_tiledL (kernelRunA c i arg2 harg2 arg3 harg3 arg4 harg4 arg5 harg5 arg6 harg6 arg7 harg7 arg8 harg8 arg9 harg9 hc x0 x1 x2 x3 x4 x5).1 S1x8x128.size (by sl_kernel_rfl) y
/-- What it leaves in the accumulator. -/
def soutA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) : Vec F S8x128 .f32 :=
  VS.read (Elt F) (VS.writes (Elt F) VS.junk (kernelRunA c i arg2 harg2 arg3 harg3 arg4 harg4 arg5 harg5 arg6 harg6 arg7 harg7 arg8 harg8 arg9 harg9 hc x0 x1 x2 x3 x4 x5).2.1)
theorem scoverA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) (y : S8x128.Idx) :
    ∃ pc ∈ (kernelRunA c i arg2 harg2 arg3 harg3 arg4 harg4 arg5 harg5 arg6 harg6 arg7 harg7 arg8 harg8 arg9 harg9 hc x0 x1 x2 x3 x4 x5).2.1, y ∈ pc.1.set :=
  View.cover_of_tiledL (kernelRunA c i arg2 harg2 arg3 harg3 arg4 harg4 arg5 harg5 arg6 harg6 arg7 harg7 arg8 harg8 arg9 harg9 hc x0 x1 x2 x3 x4 x5).2.1 S8x128.size (by sl_kernel_rfl) y

/-- The same at a later column block, over the accumulator's contents `xs` found there. -/
def outB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) : Vec F S1x8x128 .f32 :=
  VO.read (Elt F) (VO.writes (Elt F) VO.junk (kernelRunB c i arg2 harg2 arg3 harg3 arg4 harg4 arg5 harg5 arg6 harg6 arg7 harg7 arg8 harg8 arg9 harg9 hc x0 x1 x2 x3 x4 x5 xs).1)
theorem coverB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) (y : S1x8x128.Idx) :
    ∃ pc ∈ (kernelRunB c i arg2 harg2 arg3 harg3 arg4 harg4 arg5 harg5 arg6 harg6 arg7 harg7 arg8 harg8 arg9 harg9 hc x0 x1 x2 x3 x4 x5 xs).1, y ∈ pc.1.set :=
  View.cover_of_tiledL (kernelRunB c i arg2 harg2 arg3 harg3 arg4 harg4 arg5 harg5 arg6 harg6 arg7 harg7 arg8 harg8 arg9 harg9 hc x0 x1 x2 x3 x4 x5 xs).1 S1x8x128.size (by sl_kernel_rfl) y
def soutB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) : Vec F S8x128 .f32 :=
  VS.read (Elt F) (VS.writes (Elt F) VS.junk (kernelRunB c i arg2 harg2 arg3 harg3 arg4 harg4 arg5 harg5 arg6 harg6 arg7 harg7 arg8 harg8 arg9 harg9 hc x0 x1 x2 x3 x4 x5 xs).2.1)
theorem scoverB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) (y : S8x128.Idx) :
    ∃ pc ∈ (kernelRunB c i arg2 harg2 arg3 harg3 arg4 harg4 arg5 harg5 arg6 harg6 arg7 harg7 arg8 harg8 arg9 harg9 hc x0 x1 x2 x3 x4 x5 xs).2.1, y ∈ pc.1.set :=
  View.cover_of_tiledL (kernelRunB c i arg2 harg2 arg3 harg3 arg4 harg4 arg5 harg5 arg6 harg6 arg7 harg7 arg8 harg8 arg9 harg9 hc x0 x1 x2 x3 x4 x5 xs).2.1 S8x128.size (by sl_kernel_rfl) y

/-! ## Point by point -/

/-- The output's buffer and the accumulator after the body at a point of a first column block. -/
def ptA (c : Dev nD) (t : Fin cfg0.N) (h0 : t.val % 16 = 0) : Vec F S1x8x128 .f32 × Vec F S8x128 .f32 :=
  (outA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t),
   soutA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
/-- The same at a later column block, the accumulator found at `xs`. -/
def ptB (c : Dev nD) (t : Fin cfg0.N) (h0 : ¬t.val % 16 = 0) (xs : Vec F S8x128 .f32) : Vec F S1x8x128 .f32 × Vec F S8x128 .f32 :=
  (outB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) xs,
   soutB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) xs)

/-- THE ACCUMULATION: what the output's staging buffer and the accumulator hold after the body at position `n`. -/
def outsAt (c : Dev nD) : (n : ℕ) → n < cfg0.N → Vec F S1x8x128 .f32 × Vec F S8x128 .f32
  | 0, hn => ptA m c ⟨0, hn⟩ (Nat.zero_mod _)
  | n + 1, hn =>
    if h0 : (n + 1) % 16 = 0 then ptA m c ⟨n + 1, hn⟩ h0
    else ptB m c ⟨n + 1, hn⟩ h0 (outsAt c n (Nat.lt_of_succ_lt hn)).2

theorem outsAt_A (c : Dev nD) (t : Fin cfg0.N) (h0 : t.val % 16 = 0) : outsAt m c t.val t.isLt = ptA m c t h0 := by
  obtain ⟨n, hn⟩ := t
  cases n with
  | zero => exact rfl
  | succ n => exact (dif_pos h0).trans rfl

theorem outsAt_B (c : Dev nD) (t : Fin cfg0.N) (h0 : ¬t.val % 16 = 0) :
    outsAt m c t.val t.isLt = ptB m c t h0 (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The region's invariant before position `n`: the accumulator at anything before the first point, afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-- At any position the invariant holds the accumulator at some contents. -/
theorem PhiS_any (c : Dev nD) (n : ℕ) (h : n ≤ cfg0.N) : PhiS m c n h ⊢ iprop(∃ d, owns (c : Thread nD τ) scM fullShare d) := by
  cases n with
  | zero => exact Idealize.SL.BI.Entails.refl _
  | succ n => rw [PhiS_succ]; iintro H; iexists _; iexact H

/-! ## The proof data -/

/-- The proof data on core `c`: the arrays as the region finds them; after the body each input's buffer at its block and
    the output's at `outsAt`; the invariant `PhiS`; the input matrix's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4800000 in
/-- The body at any point: the inputs' buffers hold their blocks; the closed form says which case the point is in; the
    invariant hands the body the accumulator and takes it back at this point's contents; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [after0, after1, after2, after3, after4, after5, after6, PhiS_castSucc m c t]
  by_cases h0 : t.val % 16 = 0
  · rw [outsAt_A m c t h0]
    unfold ptA outA soutA; dsimp only
    iintro ⟨HS, Ho, ⟨%d0, H0⟩, ⟨%d1, H1⟩, ⟨%d2, H2⟩, ⟨%d3, H3⟩, ⟨%d4, H4⟩, ⟨%d5, H5⟩, ⟨%d6, H6⟩⟩
    ihave HS := (PhiS_any m c t.val (Nat.le_of_lt t.isLt)) $$ HS
    iapply ((kernelRunA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS]
    · unfold owns; iexists _; isplitr
      swap; · iexact HS
      ipureintro; exact View.read_writes_of_cover _ _ _ _ _ (scoverA c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverA c _ _ _ _ _ _ _ _ _ _ _ _ _ _ _ _ _ _ _ _ _ _ _ _)
  · have hz : t.val ≠ 0 := fun e => h0 (by rw [e])
    rw [outsAt_B m c t h0, PhiS_pos m c _ _ hz]
    unfold ptB outB soutB; dsimp only
    iintro ⟨HS, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%e6, H6⟩, ⟨%es, HS⟩⟩
    isplitl [HS]
    · unfold owns; iexists _; isplitr
      swap; · iexact HS
      ipureintro; exact View.read_writes_of_cover _ _ _ _ _ (scoverB c _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB c _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The accumulator at some contents is the invariant before the first point, -/
theorem hin (c : Dev nD) : (Pipeline.scopedRest (Ix := Unit) (Name := ℕ) (U := UR sig nD τ) (Lvl := ℕ) (Val := Elt F) spec0 c : sProp 𝕄) ⊢ (dats m 0 c).Φ 0 := by
  rw [scopedRest_eq, show (dats m 0 c).Φ 0 = PhiS m c 0 (Nat.zero_le _) from rfl]
  exact Idealize.SL.BI.Entails.refl _

/-- and the invariant after the last point gives it back, its named contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scopedRest_eq, show (dats m 0 c).Φ (Fin.last cfg0.N) = PhiS m c (Fin.last cfg0.N).val (Nat.le_of_lt_succ (Fin.last cfg0.N).isLt) from rfl]
  exact PhiS_any m c _ _

end Cert.KernelIdeal.Hand

end
-- ==== Proof.KI.Launch.lean ====
/-
  The contrastive-loss kernel's run, at any float instance.  The input matrix is read through two windows, so its
  buffer's full share is dealt in halves between them when the region is entered and put together again when it is
  left.  The lines after the region (take one entry per row block of the output, sum them, divide) run within the core's
  unscoped buffers: at the region's exit these are the output array at what the write-backs left and every other buffer
  as the region found it; the lines write six result buffers and no array.  So every weakly fair execution terminates
  without fault, with each array at what the proof data compute and the other buffers at the lines' results.
-/
import proofs.«133709_j1580547971173_1_alg».proof.Proof.KI.Data
import proofs.«133709_j1580547971173_1_alg».proof.Proof.LibSharedCarriedTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The six distinct buffers behind the seven windows' arrays. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v2) ↦{fullShare} Vv main_v2) ∗ (((c : Thread nD τ).loc main_v3) ↦{fullShare} Vv main_v3) ∗ (((c : Thread nD τ).loc main_v4) ↦{fullShare} Vv main_v4) ∗ (((c : Thread nD τ).loc main_v5) ↦{fullShare} Vv main_v5) ∗ (((c : Thread nD τ).loc main_v6) ↦{fullShare} Vv main_v6)) := by
  unfold Pipeline.arrBufs
  exact bigSep_eq_bigSepL_of_eq [main_arg0, main_v2, main_v3, main_v4, main_v5, main_v6] (by decide) (by decide) _

/-- The shares the proof data hold the arrays at: the input matrix's two windows a half each, every other array whole. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The proof data's arrays at contents `G`, window by window: the input matrix at a half share twice. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1) ∗ (((c : Thread nD τ).loc main_v2) ↦{fullShare} G 2) ∗ (((c : Thread nD τ).loc main_v3) ↦{fullShare} G 3) ∗ (((c : Thread nD τ).loc main_v4) ↦{fullShare} G 4) ∗ (((c : Thread nD τ).loc main_v5) ↦{fullShare} G 5) ∗ (((c : Thread nD τ).loc main_v6) ↦{fullShare} G 6)) := by
  have h : ((dats m 0 c).arrays G : sProp 𝕄)
      = bigSep Finset.univ fun w : Fin cfg0.W => ((((c : Thread nD τ).loc (Pipeline.arrRef spec0 w)) ↦{(dats m 0 c).share w} G w) : sProp 𝕄) := by
    unfold Dat.arrays
    exact bigSep_congr fun w _ => by rw [(arr_whole0 w).set_eq_univ]
  rw [h, bigSep_W0, share_0, share_1, share_2, share_3, share_4, share_5, share_6]

/-- An input's array is never written: it holds its entry contents throughout. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-! ## Entering the region -/

/-- The buffers behind the arrays, whole at the region-entry contents, are the proof data's arrays at entry: the input
    matrix's share split in halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, H2, H3, H4, H5, H6⟩
  ihave Ha := (pointsTo_share (PosShare.mem_left_op_right fullShare)).1 $$ Ha
  icases Ha with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-! ## Leaving the region: the lines after it -/

/-- The buffers' contents at the region's exit: the output array at what the write-backs left, every other buffer as the
    region found it. -/
def Wx (c : Dev nD) : Valuation τ sig (Elt F) :=
  Function.update (V0 m c) (Proc.devRef .tc main_v6) ((dats m 0 c).arrAt 6 cfg0.N)

theorem Wx_out (c : Dev nD) : Wx m c (Proc.devRef .tc main_v6) = (dats m 0 c).arrAt 6 cfg0.N := by
  unfold Wx; exact Function.update_self _ _ _

theorem Wx_of_ne (c : Dev nD) (b : Ref sig .tc) (hb : b ≠ main_v6) : Wx m c (Proc.devRef .tc b) = V m c b := by
  unfold Wx; exact Function.update_of_ne (StableHlo.devRef_ne_of_ne hb) _ _

/-- The buffers' contents after the lines that follow the region. -/
def V' (c : Dev nD) (b : Ref sig .tc) : Buf (Elt F) ((c : Thread nD τ).loc b) :=
  StableHlo.after (List.flatten [hostOps1]) (Wx m c) (Proc.devRef .tc b)

/-- The core's sixteen unscoped buffers held at a valuation, one by one. -/
theorem held_eq (c : Dev nD) (Wv : Valuation τ sig (Elt F)) :
    (StableHlo.held (c : Thread nD τ) (Pipeline.ucRefs τ sig) Wv : sProp 𝕄)
      = iprop((((c : Thread nD τ).loc main_arg0) ↦{fullShare} Wv (Proc.devRef .tc main_arg0)) ∗ (((c : Thread nD τ).loc main_v2) ↦{fullShare} Wv (Proc.devRef .tc main_v2)) ∗ (((c : Thread nD τ).loc main_v3) ↦{fullShare} Wv (Proc.devRef .tc main_v3)) ∗ (((c : Thread nD τ).loc main_v4) ↦{fullShare} Wv (Proc.devRef .tc main_v4)) ∗ (((c : Thread nD τ).loc main_v5) ↦{fullShare} Wv (Proc.devRef .tc main_v5)) ∗ (((c : Thread nD τ).loc main_v6) ↦{fullShare} Wv (Proc.devRef .tc main_v6)) ∗ (((c : Thread nD τ).loc main_arg1) ↦{fullShare} Wv (Proc.devRef .tc main_arg1)) ∗ (((c : Thread nD τ).loc main_v0) ↦{fullShare} Wv (Proc.devRef .tc main_v0)) ∗ (((c : Thread nD τ).loc main_cst) ↦{fullShare} Wv (Proc.devRef .tc main_cst)) ∗ (((c : Thread nD τ).loc main_v1) ↦{fullShare} Wv (Proc.devRef .tc main_v1)) ∗ (((c : Thread nD τ).loc main_v7) ↦{fullShare} Wv (Proc.devRef .tc main_v7)) ∗ (((c : Thread nD τ).loc main_v8) ↦{fullShare} Wv (Proc.devRef .tc main_v8)) ∗ (((c : Thread nD τ).loc main_cst_0) ↦{fullShare} Wv (Proc.devRef .tc main_cst_0)) ∗ (((c : Thread nD τ).loc main_v9) ↦{fullShare} Wv (Proc.devRef .tc main_v9)) ∗ (((c : Thread nD τ).loc main_cst_1) ↦{fullShare} Wv (Proc.devRef .tc main_cst_1)) ∗ (((c : Thread nD τ).loc main_v10) ↦{fullShare} Wv (Proc.devRef .tc main_v10))) := by
  unfold StableHlo.held
  exact bigSep_eq_bigSepL_of_eq [Proc.devRef .tc main_arg0, Proc.devRef .tc main_v2, Proc.devRef .tc main_v3, Proc.devRef .tc main_v4, Proc.devRef .tc main_v5, Proc.devRef .tc main_v6, Proc.devRef .tc main_arg1, Proc.devRef .tc main_v0, Proc.devRef .tc main_cst, Proc.devRef .tc main_v1, Proc.devRef .tc main_v7, Proc.devRef .tc main_v8, Proc.devRef .tc main_cst_0, Proc.devRef .tc main_v9, Proc.devRef .tc main_cst_1, Proc.devRef .tc main_v10] (by decide) (by decide) _

/-- The lines after the region touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The lines after the region write none of the arrays: each holds after them what it held at the exit. -/
theorem keep_main_arg0 (c : Dev nD) :
    StableHlo.after (List.flatten [hostOps1]) (Wx m c) (Proc.devRef .tc main_arg0) = Wx m c (Proc.devRef .tc main_arg0) := by
  simp only [hostOps1, List.flatten_cons, List.flatten_nil, List.append_nil]; after_results
theorem keep_main_v2 (c : Dev nD) :
    StableHlo.after (List.flatten [hostOps1]) (Wx m c) (Proc.devRef .tc main_v2) = Wx m c (Proc.devRef .tc main_v2) := by
  simp only [hostOps1, List.flatten_cons, List.flatten_nil, List.append_nil]; after_results
theorem keep_main_v3 (c : Dev nD) :
    StableHlo.after (List.flatten [hostOps1]) (Wx m c) (Proc.devRef .tc main_v3) = Wx m c (Proc.devRef .tc main_v3) := by
  simp only [hostOps1, List.flatten_cons, List.flatten_nil, List.append_nil]; after_results
theorem keep_main_v4 (c : Dev nD) :
    StableHlo.after (List.flatten [hostOps1]) (Wx m c) (Proc.devRef .tc main_v4) = Wx m c (Proc.devRef .tc main_v4) := by
  simp only [hostOps1, List.flatten_cons, List.flatten_nil, List.append_nil]; after_results
theorem keep_main_v5 (c : Dev nD) :
    StableHlo.after (List.flatten [hostOps1]) (Wx m c) (Proc.devRef .tc main_v5) = Wx m c (Proc.devRef .tc main_v5) := by
  simp only [hostOps1, List.flatten_cons, List.flatten_nil, List.append_nil]; after_results
theorem keep_main_v6 (c : Dev nD) :
    StableHlo.after (List.flatten [hostOps1]) (Wx m c) (Proc.devRef .tc main_v6) = Wx m c (Proc.devRef .tc main_v6) := by
  simp only [hostOps1, List.flatten_cons, List.flatten_nil, List.append_nil]; after_results

/-- At the exit the arrays and the bypassing buffers are the unscoped buffers held at the exit contents: the input
    matrix's halves put together. -/
theorem hexit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ iprop((StableHlo.held (c : Thread nD τ) (Pipeline.ucRefs τ sig) (Wx m c) : sProp 𝕄) ∗ (iprop(emp) : sProp 𝕄)) := by
  rw [held_eq, arrays_eq, unscopedRest0_eq, Wx_out]
  rw [Wx_of_ne m c main_arg0 (by decide), Wx_of_ne m c main_v2 (by decide), Wx_of_ne m c main_v3 (by decide), Wx_of_ne m c main_v4 (by decide), Wx_of_ne m c main_v5 (by decide)]
  rw [Wx_of_ne m c main_arg1 (by decide), Wx_of_ne m c main_v0 (by decide), Wx_of_ne m c main_cst (by decide), Wx_of_ne m c main_v1 (by decide), Wx_of_ne m c main_v7 (by decide), Wx_of_ne m c main_v8 (by decide), Wx_of_ne m c main_cst_0 (by decide), Wx_of_ne m c main_v9 (by decide), Wx_of_ne m c main_cst_1 (by decide), Wx_of_ne m c main_v10 (by decide)]
  rw [arrAt_in m c 0 rfl, arrAt_in m c 1 rfl, arrAt_in m c 2 rfl, arrAt_in m c 3 rfl, arrAt_in m c 4 rfl, arrAt_in m c 5 rfl]
  iintro ⟨⟨Hl, Hr, H2, H3, H4, H5, H6⟩, ⟨Ha1, Hv0, Hcst, Hv1, Hv7, Hv8, Hc0, Hv9, Hc1, Hv10⟩⟩
  ihave Ha := (pointsTo_share (PosShare.mem_left_op_right fullShare)).2 $$ [Hl Hr]
  · isplitl [Hl]; · iexact Hl
    iexact Hr
  isplitl [Ha H2 H3 H4 H5 H6 Ha1 Hv0 Hcst Hv1 Hv7 Hv8 Hc0 Hv9 Hc1 Hv10]; swap; · iempintro
  isplitl [Ha]; · iexact Ha
  isplitl [H2]; · iexact H2
  isplitl [H3]; · iexact H3
  isplitl [H4]; · iexact H4
  isplitl [H5]; · iexact H5
  isplitl [H6]; · iexact H6
  isplitl [Ha1]; · iexact Ha1
  isplitl [Hv0]; · iexact Hv0
  isplitl [Hcst]; · iexact Hcst
  isplitl [Hv1]; · iexact Hv1
  isplitl [Hv7]; · iexact Hv7
  isplitl [Hv8]; · iexact Hv8
  isplitl [Hc0]; · iexact Hc0
  isplitl [Hv9]; · iexact Hv9
  isplitl [Hc1]; · iexact Hc1
  iexact Hv10

/-- After the lines the unscoped buffers held at the lines' results give the arrays back as the exit had them (the
    lines write none) — the input matrix's share in halves again — and the bypassing buffers at the lines' results. -/
theorem hback (c : Dev nD) :
    iprop((StableHlo.held (c : Thread nD τ) (Pipeline.ucRefs τ sig) (StableHlo.after (List.flatten [hostOps1]) (Wx m c)) : sProp 𝕄) ∗ (iprop(emp) : sProp 𝕄))
      ⊢ iprop((dats m 0 c).arrays ((dats m 0 c).arrAt · cfg0.N)
        ∗ Pipeline.unscopedRest (Ix := Unit) (Name := ℕ) (U := UR sig nD τ) (Lvl := ℕ) spec0 c (V' m c)) := by
  rw [held_eq, arrays_eq, unscopedRest0_eq]
  rw [keep_main_arg0, keep_main_v2, keep_main_v3, keep_main_v4, keep_main_v5, keep_main_v6, Wx_out]
  rw [Wx_of_ne m c main_arg0 (by decide), Wx_of_ne m c main_v2 (by decide), Wx_of_ne m c main_v3 (by decide), Wx_of_ne m c main_v4 (by decide), Wx_of_ne m c main_v5 (by decide)]
  rw [arrAt_in m c 0 rfl, arrAt_in m c 1 rfl, arrAt_in m c 2 rfl, arrAt_in m c 3 rfl, arrAt_in m c 4 rfl, arrAt_in m c 5 rfl]
  unfold V'
  iintro ⟨⟨Ha, H2, H3, H4, H5, H6, Ha1, Hv0, Hcst, Hv1, Hv7, Hv8, Hc0, Hv9, Hc1, Hv10⟩, -⟩
  ihave Ha := (pointsTo_share (PosShare.mem_left_op_right fullShare)).1 $$ Ha
  icases Ha with ⟨Hl, Hr⟩
  isplitl [Hl Hr H2 H3 H4 H5 H6]
  · isplitl [Hl]; · iexact Hl
    isplitl [Hr]; · iexact Hr
    isplitl [H2]; · iexact H2
    isplitl [H3]; · iexact H3
    isplitl [H4]; · iexact H4
    isplitl [H5]; · iexact H5
    iexact H6
  isplitl [Ha1]; · iexact Ha1
  isplitl [Hv0]; · iexact Hv0
  isplitl [Hcst]; · iexact Hcst
  isplitl [Hv1]; · iexact Hv1
  isplitl [Hv7]; · iexact Hv7
  isplitl [Hv8]; · iexact Hv8
  isplitl [Hc0]; · iexact Hc0
  isplitl [Hv9]; · iexact Hv9
  isplitl [Hc1]; · iexact Hc1
  iexact Hv10

/-! ## The run and the frame -/

set_option backward.isDefEq.respectTransparency.types false in
/-- At the compiled mesh, for any values, from any memory with zero counters: every weakly fair execution of @main
    terminates without fault, and every final state has each array of the pipeline at what the proof data compute and
    every other unscoped buffer at what the lines after the region leave. -/
theorem run_main : θ_run defs (onTc (τ := τ) (main (F := F))) (s₀ m ρ) (Pipeline.FramePost cfgs (dats m) 0 (V' m)) :=
  Pipeline.θ_run_frame_shared_carried_around cfgs (dats m) (0 : Fin 1) cellOf_inj winFacts₀0 block_pos0 arr_whole0 stage_whole0
    defs₀ Variants.none m ρ main
    (hbody := fun c => (body_obligation m c).loose) (howed := fun _ _ => rfl)
    (V := V m) (V' := V' m) (opss := [hostOps1]) (hmain := hmain m Variants.none)
    (hsplit := hsplit m) (hin := hin m) (hout := hout m)
    (S := Pipeline.ucRefs τ sig) (W := Wx m) (R := fun _ => iprop(emp))
    (hsub := sfx_sub) (hfresh := sfx_fresh) (hexit := hexit m) (hback := hback m)

/-- The lines after the region write neither argument. -/
theorem V'_main_arg1 (c : Dev nD) : V' m c main_arg1 = m ((c : Thread nD τ).loc main_arg1) := by
  have e : V' m c main_arg1 = Wx m c (Proc.devRef .tc main_arg1) := by
    unfold V'; simp only [hostOps1, List.flatten_cons, List.flatten_nil, List.append_nil]; after_results
  rw [e, Wx_of_ne m c main_arg1 (by decide), V_main_arg1]

/-- THE FRAME: the program runs to the end, faults nowhere, and leaves both argument arrays as it found them — the
    matrix because an input's array is never written, the labels because no line after the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((arrAt_in m c 0 rfl _).trans (V_main_arg0 m c)),
     ((h c).2 main_arg1 (Pipeline.mem_restRefs_of main_arg1 rfl (by decide))).trans (V'_main_arg1 m c)⟩) (run_main m ρ)

end Cert.KernelIdeal.Hand

end
-- ==== Proof.KI.Pieces.lean ====
/-
  What the body's stores leave, as values. At a first column block of a row block the accumulator is zeroed, read
  back, and the tile's total is added into it; at a later one the total is added into what the accumulator held. In
  both cases the output's staging buffer then receives a copy of the accumulator. Every store and load is through the
  whole-shape rectangle at zero offsets, so a store leaves its payload and a load after it reads that payload: the
  read-backs of the found pieces are the skeleton's payload terms applied to the blocks.
-/
import proofs.«133709_j1580547971173_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Zero offsets on two axes. -/
theorem hz2 : (![0, 0] : Fin 2 → Nat) = fun _ => 0 := funext fun a => by fin_cases a <;> rfl
/-- Zero offsets on three axes. -/
theorem hz3 : (![0, 0, 0] : Fin 3 → Nat) = fun _ => 0 := funext fun a => by fin_cases a <;> rfl

/-- A load through the whole-shape rectangle at zero offsets, after a store through it that is the LAST of any list of
    stores, reads that store's payload. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## A first column block: the accumulator starts from the zero block -/

/-- The accumulator after the body: the tile's total added into the zero block. -/
theorem soutA_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) :
    soutA c i arg2 harg2 arg3 harg3 arg4 harg4 arg5 harg5 arg6 harg6 arg7 harg7 arg8 harg8 arg9 harg9 hc x0 x1 x2 x3 x4 x5 = k0_pay1 (k0_pay4 x0 x1 x2 x3 x4 x5) (k0_pay3 (F := F)) := by
  unfold soutA
  rw [View.read_writes_eq_canon _ _ _ (scoverA c i arg2 harg2 arg3 harg3 arg4 harg4 arg5 harg5 arg6 harg6 arg7 harg7 arg8 harg8 arg9 harg9 hc x0 x1 x2 x3 x4 x5)]
  unfold kernelRunA
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread,
    harg6.read_unread, harg7.read_unread, View.ld_unit_zero (S := S1024x256) hz2, View.ld_unit_zero (S := S512x256) hz2,
    View.ld_unit_zero (S := S1024x1) hz2, View.ld_unit_zero (S := S1x512) hz2]

/-- The output's staging buffer after the body: a copy of that accumulator. -/
theorem outA_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : cond0 i) (x0 : Vec F S1024x256 .f32) (x1 : Vec F S512x256 .f32) (x2 : Vec F S1024x1 .f32) (x3 : Vec F S1x512 .f32) (x4 : Vec F S1024x1 .i32) (x5 : Vec F S1x512 .i32) :
    outA c i arg2 harg2 arg3 harg3 arg4 harg4 arg5 harg5 arg6 harg6 arg7 harg7 arg8 harg8 arg9 harg9 hc x0 x1 x2 x3 x4 x5 = k0_pay2 (k0_pay1 (k0_pay4 x0 x1 x2 x3 x4 x5) (k0_pay3 (F := F))) := by
  unfold outA
  rw [View.read_writes_eq_canon _ _ _ (coverA c i arg2 harg2 arg3 harg3 arg4 harg4 arg5 harg5 arg6 harg6 arg7 harg7 arg8 harg8 arg9 harg9 hc x0 x1 x2 x3 x4 x5)]
  unfold kernelRunA
  dsimp only
  sl_unfold_words
  rw [View.canon_unit_zero (S := S1x8x128) hz3, readCov_cons_unit_zero (S := S8x128) _ hz2,
    View.readCov_unit_zero (S := S8x128) _ hz2]
  simp only [View.readAt_eq_ld, harg2.read_unread, harg3.read_unread, harg4.read_unread, harg5.read_unread,
    harg6.read_unread, harg7.read_unread, View.ld_unit_zero (S := S1024x256) hz2, View.ld_unit_zero (S := S512x256) hz2,
    View.ld_unit_zero (S := S1024x1) hz2, View.ld_unit_zero (S := S1x512) hz2]

/-! ## A later column block: the accumulator starts from what it held -/

/-- The accumulator after the body: the tile's total added into its contents `xs`. -/
theorem soutB_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) :
    soutB c i arg2 harg2 arg3 harg3 arg4 harg4 arg5 harg5 arg6 harg6 arg7 harg7 arg8 harg8 arg9 harg9 hc x0 x1 x2 x3 x4 x5 xs = k0_pay1 (k0_pay4 x0 x1 x2 x3 x4 x5) xs := by
  unfold soutB
  rw [View.read_writes_eq_canon _ _ _ (scoverB c i arg2 harg2 arg3 harg3 arg4 harg4 arg5 harg5 arg6 harg6 arg7 harg7 arg8 harg8 arg9 harg9 hc x0 x1 x2 x3 x4 x5 xs)]
  unfold kernelRunB
  dsimp only
  sl_unfold_words
  rw [View.canon_unit_zero (S := S8x128) hz2]
  simp only [View.readAt_eq_ld, harg2.read_unread, harg3.read_unread, harg4.read_unread, harg5.read_unread,
    harg6.read_unread, harg7.read_unread, View.ld_unit_zero (S := S1024x256) hz2, View.ld_unit_zero (S := S512x256) hz2,
    View.ld_unit_zero (S := S1024x1) hz2, View.ld_unit_zero (S := S1x512) hz2, harg9.read_unread, View.ld_unit_zero (S := S8x128) hz2]

/-- The output's staging buffer after the body: a copy of that accumulator. -/
theorem outB_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S8x128 .f32) (harg9 : arg9.IsWhole) (hc : ¬cond0 i) (x0 : Vec F S1024x256 .f32) (x1 : Vec F S512x256 .f32) (x2 : Vec F S1024x1 .f32) (x3 : Vec F S1x512 .f32) (x4 : Vec F S1024x1 .i32) (x5 : Vec F S1x512 .i32) (xs : Vec F S8x128 .f32) :
    outB c i arg2 harg2 arg3 harg3 arg4 harg4 arg5 harg5 arg6 harg6 arg7 harg7 arg8 harg8 arg9 harg9 hc x0 x1 x2 x3 x4 x5 xs = k0_pay2 (k0_pay1 (k0_pay4 x0 x1 x2 x3 x4 x5) xs) := by
  unfold outB
  rw [View.read_writes_eq_canon _ _ _ (coverB c i arg2 harg2 arg3 harg3 arg4 harg4 arg5 harg5 arg6 harg6 arg7 harg7 arg8 harg8 arg9 harg9 hc x0 x1 x2 x3 x4 x5 xs)]
  unfold kernelRunB
  dsimp only
  sl_unfold_words
  rw [View.canon_unit_zero (S := S1x8x128) hz3, View.readCov_unit_zero (S := S8x128) _ hz2]
  simp only [View.readAt_eq_ld, harg2.read_unread, harg3.read_unread, harg4.read_unread, harg5.read_unread,
    harg6.read_unread, harg7.read_unread, View.ld_unit_zero (S := S1024x256) hz2, View.ld_unit_zero (S := S512x256) hz2,
    View.ld_unit_zero (S := S1024x1) hz2, View.ld_unit_zero (S := S1x512) hz2, harg9.read_unread, View.ld_unit_zero (S := S8x128) hz2]

end Cert.KernelIdeal.Hand

end
-- ==== Proof.Spec.lean ====
/-
  The specification of the pairwise contrastive loss, as one function of the two argument arrays, over the extended
  reals. For points `x : [8192, 256]` and labels `t : [8192]`:

    sq P      = ∑ d, x[P,d]²                       the squared norm of point P
    gram P Q  = ∑ d, x[P,d] · x[Q,d]               the inner product of points P and Q
    dist      = (sq P + sq Q) − 2 · gram P Q       the squared distance
    r         = 1 if t[P] = t[Q], else 0           the same-label indicator
    loss P Q  = r · dist + (1 − r) · max (½ − dist) 0
    result    = (∑ P, ∑ Q, loss P Q) / 134201344

  The float literals 2, 1, ½ and the divisor are kept as the extended reals their words denote
  (`Ideal.ofBits .f32 0x…`), never evaluated: both programs carry the same words. No program is imported here.
-/
import Idealize.ShloMosaic.PureOps.Ideal
import Idealize.ShloMosaic.Lib.ValueIdx

noncomputable section

open scoped BigOperators

namespace Cert.Contrast

open Idealize.ShloMosaic Idealize.ShloMosaic.ValueIdx

/-- The same-label indicator: `1` when the two labels are the same word, else `0`. -/
def mask (u v : BitVec 32) : EReal := if u = v then 1 else 0

/-- One bit read as an unsigned integer, at the comparison `v = u` (arguments in the other order), is the indicator. -/
theorem mask_ref (u v : BitVec 32) :
    FloatOps.uitofp (F := Ideal) .f32 (IntOp.cmpi .eq v u) = mask u v := by
  unfold mask
  show (((IntOp.cmpi .eq v u).toNat : ℝ) : EReal) = _
  by_cases h : u = v
  · subst h
    rw [if_pos rfl]
    have hb : IntOp.cmpi .eq u u = 1#1 := by simp [IntOp.cmpi]
    rw [hb]; simp
  · rw [if_neg h]
    have hne : (v == u) = false := beq_false_of_ne fun e => h e.symm
    have hb : IntOp.cmpi .eq v u = 0#1 := by
      show BitVec.ofBool (v == u) = 0#1
      rw [hne]; rfl
    rw [hb]; simp

/-- The comparison bit `u = v`, zero-extended to 32 bits and read as a signed integer, is the indicator. -/
theorem mask_kernel (u v : BitVec 32) :
    FloatOps.sitofp (F := Ideal) .f32 ((IntOp.cmpi .eq u v).setWidth 32) = mask u v := by
  unfold mask
  show (((((IntOp.cmpi .eq u v).setWidth 32).toInt : ℤ) : ℝ) : EReal) = _
  by_cases h : u = v
  · subst h
    rw [if_pos rfl]
    have hb : IntOp.cmpi .eq u u = 1#1 := by simp [IntOp.cmpi]
    rw [hb]
    have : ((1#1 : BitVec 1).setWidth 32).toInt = 1 := by decide
    rw [this]; simp
  · rw [if_neg h]
    have hne : (u == v) = false := beq_false_of_ne h
    have hb : IntOp.cmpi .eq u v = 0#1 := by
      show BitVec.ofBool (u == v) = 0#1
      rw [hne]; rfl
    rw [hb]
    have : ((0#1 : BitVec 1).setWidth 32).toInt = 0 := by decide
    rw [this]; simp

/-- One pair's loss from the two squared norms `a`, `b`, the inner product `g` and the two labels:
    with `dist = (a + b) − 2·g` and `r` the same-label indicator, `r·dist + (1 − r)·max (½ − dist) 0`. -/
def lossCell (a b g : EReal) (u v : BitVec 32) : EReal :=
  mask u v * (a + b - Ideal.ofBits .f32 0x40000000#32 * g)
    + (Ideal.ofBits .f32 0x3F800000#32 - mask u v)
        * max (Ideal.ofBits .f32 0x3F000000#32 - (a + b - Ideal.ofBits .f32 0x40000000#32 * g)) 0

/-- The squared norm of point `P`: `∑ d, x[P,d]²`. -/
def sq (x : (⟨2, ![8192, 256]⟩ : Shape).Idx → EReal) (P : Fin 8192) : EReal :=
  ∑ d : Fin 256, x (ix2 P d) * x (ix2 P d)

/-- The inner product of points `P` and `Q`: `∑ d, x[P,d]·x[Q,d]`. -/
def gram (x : (⟨2, ![8192, 256]⟩ : Shape).Idx → EReal) (P Q : Fin 8192) : EReal :=
  ∑ d : Fin 256, x (ix2 P d) * x (ix2 Q d)

/-- The loss of the pair `(P, Q)`. -/
def loss (x : (⟨2, ![8192, 256]⟩ : Shape).Idx → EReal) (t : (⟨1, ![8192]⟩ : Shape).Idx → BitVec 32)
    (P Q : Fin 8192) : EReal :=
  lossCell (sq x P) (sq x Q) (gram x P Q) (t (ix1 P)) (t (ix1 Q))

/-- The sum of the loss over all ordered pairs. -/
def total (x : (⟨2, ![8192, 256]⟩ : Shape).Idx → EReal) (t : (⟨1, ![8192]⟩ : Shape).Idx → BitVec 32) : EReal :=
  ∑ P : Fin 8192, ∑ Q : Fin 8192, loss x t P Q

/-- The result: the total divided by the float word `0x4CFFF800` (134201344). -/
def result (x : (⟨2, ![8192, 256]⟩ : Shape).Idx → EReal) (t : (⟨1, ![8192]⟩ : Shape).Idx → BitVec 32) : EReal :=
  Ideal.div (total x t) (Ideal.ofBits .f32 0x4CFFF800#32)

end Cert.Contrast

end
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.PayRows.lean ====
/-
  The loss tile's row sums read at an index, over the extended reals.

  One grid point holds 1024 points of a row block (their entries x0, squared norms c0 as a column, labels u0 as a
  column) and 512 points of a column block (entries x1, squared norms r0 as a row, labels v0 as a row). The body forms
  the [1024, 512] tile of inner products (the matrix product of x0 with x1 along their common last axis, into a zero
  accumulator; the change of format on the way in is the identity on extended reals), the tile of squared distances
  (column plus row, minus twice the inner product), the tile of same-label indicators, the tile of losses, and sums
  each row of it. Read at row p the result is the sum over the 512 columns q of the loss of the pair (p, q).
-/
import proofs.«133709_j1580547971173_1_alg».proof.Proof.Gen.KernelIdeal.Skeleton
import proofs.«133709_j1580547971173_1_alg».proof.Proof.Spec
import proofs.«133709_j1580547971173_1_alg».proof.Proof.LibDotTransposedRhs
import proofs.«133709_j1580547971173_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Contrast.Tile

open Idealize.ShloMosaic Idealize.ShloMosaic.ValueIdx Cert.KernelIdeal

/-- The tile of squared distances: the column of row norms plus the row of column norms, minus twice the tile of inner
    products. -/
def distTile (x0 : Vec Ideal S1024x256 .f32) (x1 : Vec Ideal S512x256 .f32) (c0 : Vec Ideal S1024x1 .f32)
    (r0 : Vec Ideal S1x512 .f32) : FVec Ideal S1024x512 .f32 :=
  subf
    (addf
      (broadcastTo S1024x512 (shapeCast S1024x1 c0 Gen.shapeCasts_S1024x1_S1024x1) Gen.broadcasts_S1024x1_S1024x512)
      (broadcastTo S1024x512 (shapeCast S1x512 r0 Gen.shapeCasts_S1x512_S1x512) Gen.broadcasts_S1x512_S1024x512))
    (mulf (broadcast S1024x512 (Scalar.ofBits (F := Ideal) .f32 0x40000000#32))
      (matmul (F := Ideal) dot_S1024x256_S512x256_S1024x512_1_1_0_0_n_n none
        (truncf .bf16 x0 Gen.bitsLt_bf16_f32) (truncf .bf16 x1 Gen.bitsLt_bf16_f32)
        (constant (F := Ideal) S1024x512 .f32 0x00000000#32)))

/-- The tile of same-label indicators: the label column against the label row, the comparison bit widened and read as a
    number. -/
def maskTile (u0 : Vec Ideal S1024x1 .i32) (v0 : Vec Ideal S1x512 .i32) : FVec Ideal S1024x512 .f32 :=
  sitofp .f32
    (extui 32
      (cmpi .eq
        (broadcastTo S1024x512 (shapeCast S1024x1 u0 Gen.shapeCasts_S1024x1_S1024x1) Gen.broadcasts_S1024x1_S1024x512)
        (broadcastTo S1024x512 (shapeCast S1x512 v0 Gen.shapeCasts_S1x512_S1x512) Gen.broadcasts_S1x512_S1024x512))
      Gen.natLt_1_32)

/-- The row sums are the lane sums of the loss tile built from the two tiles above. -/
theorem pay4_eq (x0 : Vec Ideal S1024x256 .f32) (x1 : Vec Ideal S512x256 .f32) (c0 : Vec Ideal S1024x1 .f32)
    (r0 : Vec Ideal S1x512 .f32) (u0 : Vec Ideal S1024x1 .i32) (v0 : Vec Ideal S1x512 .i32) :
    Gen.k0_pay4 (F := Ideal) x0 x1 c0 r0 u0 v0
      = multiReduction .add [1] S1024
          (addf (mulf (maskTile u0 v0) (distTile x0 x1 c0 r0))
            (mulf (subf (broadcast S1024x512 (Scalar.ofBits (F := Ideal) .f32 0x3F800000#32)) (maskTile u0 v0))
              (maximumf (subf (broadcast S1024x512 (Scalar.ofBits (F := Ideal) .f32 0x3F000000#32)) (distTile x0 x1 c0 r0))
                (broadcast S1024x512 (Scalar.ofBits (F := Ideal) .f32 0x00000000#32)))))
          0x00000000#32 Gen.reduces_S1024x512_S1024 (.inl rfl) rfl := rfl

/-- The squared distance of the pair (p, q). -/
theorem distTile_apply (x0 : Vec Ideal S1024x256 .f32) (x1 : Vec Ideal S512x256 .f32) (c0 : Vec Ideal S1024x1 .f32)
    (r0 : Vec Ideal S1x512 .f32) (p : Fin 1024) (q : Fin 512) :
    distTile x0 x1 c0 r0 (ix2 p q)
      = c0 (ix2 p (0 : Fin 1)) + r0 (ix2 (0 : Fin 1) q)
          - Ideal.ofBits .f32 0x40000000#32 * ∑ k : Fin 256, x0 (ix2 p k) * x1 (ix2 q k) := by
  unfold distTile
  rw [subf_apply, addf_apply, mulf_apply, broadcast_apply, shapeCast_self, shapeCast_self]
  refine congrArg₂ (· - ·) (congrArg₂ (· + ·) ?_ ?_) (congrArg (Ideal.ofBits .f32 0x40000000#32 * ·) ?_)
  · exact Cert.Lib.Keepdims.broadcastTo_a1_ab_apply c0 _ p q
  · exact broadcastTo_1b_ab_apply r0 _ p q
  · exact Cert.DotTransposedRhs.matmul_zero_apply _ rfl _ _ p q

/-- The same-label indicator of the pair (p, q). -/
theorem maskTile_apply (u0 : Vec Ideal S1024x1 .i32) (v0 : Vec Ideal S1x512 .i32) (p : Fin 1024) (q : Fin 512) :
    maskTile u0 v0 (ix2 p q) = mask (u0 (ix2 p (0 : Fin 1))) (v0 (ix2 (0 : Fin 1) q)) := by
  unfold maskTile
  rw [sitofp_apply, extui_apply, shapeCast_self, shapeCast_self]
  refine Eq.trans ?_ (mask_kernel (u0 (ix2 p (0 : Fin 1))) (v0 (ix2 (0 : Fin 1) q)))
  refine congrArg (fun w : BitVec 1 => FloatOps.sitofp (F := Ideal) .f32 (w.setWidth 32)) ?_
  exact congrArg₂ (IntOp.cmpi .eq) (Cert.Lib.Keepdims.broadcastTo_a1_ab_apply u0 _ p q)
    (broadcastTo_1b_ab_apply v0 _ p q)

/-- The row sums of the loss tile at row p: the sum over the 512 columns q of the loss of the pair (p, q), from the
    row's squared norm, the column's squared norm, their inner product and the two labels. -/
theorem pay4_apply (x0 : Vec Ideal S1024x256 .f32) (x1 : Vec Ideal S512x256 .f32) (c0 : Vec Ideal S1024x1 .f32)
    (r0 : Vec Ideal S1x512 .f32) (u0 : Vec Ideal S1024x1 .i32) (v0 : Vec Ideal S1x512 .i32) (p : Fin 1024) :
    Gen.k0_pay4 (F := Ideal) x0 x1 c0 r0 u0 v0 (ix1 p)
      = ∑ q : Fin 512, lossCell (c0 (ix2 p (0 : Fin 1))) (r0 (ix2 (0 : Fin 1) q))
          (∑ k : Fin 256, x0 (ix2 p k) * x1 (ix2 q k)) (u0 (ix2 p (0 : Fin 1))) (v0 (ix2 (0 : Fin 1) q)) := by
  rw [pay4_eq]
  refine (Cert.Lib.Keepdims.laneSum_apply _ _ _ _ _ p).trans ?_
  refine Finset.sum_congr rfl fun q _ => ?_
  rw [addf_apply, mulf_apply, mulf_apply, subf_apply, maximumf_apply, subf_apply, broadcast_apply, broadcast_apply,
    broadcast_apply, maskTile_apply, distTile_apply]
  unfold lossCell
  rw [show Scalar.ofBits (F := Ideal) .f32 0x00000000#32 = (0 : EReal) from Ideal.ofBits_zero_f32]
  rfl

end Cert.Contrast.Tile

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.HostEnds.lean ====
/-
  The host operations before and after the kernel's region, read at an index, over the extended reals.

  Before the region the host squares the points, sums each row into the [8192] vector of squared norms, and sets that
  vector — and the [8192] label vector — both as a column [8192, 1] and as a row [1, 8192]. After the region it takes
  entry (k, 0, 0) of each of the eight output blocks, sums the eight numbers from zero, and divides by a constant.
  Read at an index:
  • the column of squared norms at (P, 0) and the row at (0, Q) are the sums over d < 256 of the squared entries of
    point P (of point Q);
  • the label column at (P, 0) and the label row at (0, Q) are the labels of P and of Q;
  • the result is the quotient of the sum of the eight entries (k, 0, 0) by the constant's value.
-/
import proofs.«133709_j1580547971173_1_alg».proof.Proof.Gen.KernelIdeal
import proofs.«133709_j1580547971173_1_alg».proof.Proof.LibKeepdims
import proofs.«133709_j1580547971173_1_alg».proof.Proof.LibHostColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Contrast.Tile

open Idealize.ShloMosaic Idealize.ShloMosaic.ValueIdx Cert.KernelIdeal

/-! ## Before the region -/

/-- The host's vector of squared norms: each row of the squared array summed from the zero word. -/
def sqVec (x : (⟨S8192x256, .f32⟩ : BufTy).Contents (Elt Ideal)) : (⟨S8192, .f32⟩ : BufTy).Contents (Elt Ideal) :=
  Host.reduceAdd (F := Ideal) (mulf x x) (constant (F := Ideal) S_ .f32 0x00000000#32)
    Gen.reducesTo_S8192x256_S8192_d1 Gen.h_S_

/-- Entry P of the vector of squared norms is the sum over d < 256 of the squared entries of point P. -/
theorem sqVec_apply (x : (⟨S8192x256, .f32⟩ : BufTy).Contents (Elt Ideal)) (P : Fin 8192) :
    sqVec x (ix1 P) = ∑ d : Fin 256, x (ix2 P d) * x (ix2 P d) := by
  unfold sqVec
  refine (Cert.Lib.HostColumns.hostRowSum_apply _ _ _ (by decide) _ P).trans ?_
  rw [constant_apply, Ideal.ofBits_zero_f32, zero_add]
  rfl

/-- The column of squared norms at (P, 0). -/
theorem sqCol_apply (x : (⟨S8192x256, .f32⟩ : BufTy).Contents (Elt Ideal)) (P : Fin 8192) :
    shapeCast S8192x1 (sqVec x) Gen.shapeCasts_S8192_S8192x1 (ix2 P (0 : Fin 1))
      = ∑ d : Fin 256, x (ix2 P d) * x (ix2 P d) :=
  (Cert.Lib.Keepdims.shapeCast_a_a1_apply _ _ P (0 : Fin 1)).trans (sqVec_apply x P)

/-- The row of squared norms at (0, Q). -/
theorem sqRow_apply (x : (⟨S8192x256, .f32⟩ : BufTy).Contents (Elt Ideal)) (Q : Fin 8192) :
    shapeCast S1x8192 (sqVec x) Gen.shapeCasts_S8192_S1x8192 (ix2 (0 : Fin 1) Q)
      = ∑ d : Fin 256, x (ix2 Q d) * x (ix2 Q d) :=
  (shapeCast_a_1a_apply _ _ (0 : Fin 1) Q).trans (sqVec_apply x Q)

/-- The label column at (P, 0) is the label of P. -/
theorem labCol_apply (t : (⟨S8192, .i32⟩ : BufTy).Contents (Elt Ideal)) (P : Fin 8192) :
    shapeCast S8192x1 t Gen.shapeCasts_S8192_S8192x1 (ix2 P (0 : Fin 1)) = t (ix1 P) :=
  Cert.Lib.Keepdims.shapeCast_a_a1_apply _ _ P (0 : Fin 1)

/-- The label row at (0, Q) is the label of Q. -/
theorem labRow_apply (t : (⟨S8192, .i32⟩ : BufTy).Contents (Elt Ideal)) (Q : Fin 8192) :
    shapeCast S1x8192 t Gen.shapeCasts_S8192_S1x8192 (ix2 (0 : Fin 1) Q) = t (ix1 Q) :=
  shapeCast_a_1a_apply _ _ (0 : Fin 1) Q

/-! ## After the region -/

/-- An [a, 1, 1] array viewed as the vector [a]: entry k is the array's entry (k, 0, 0). -/
theorem shapeCast_a11_a_apply {α : Type} {a : ℕ} (x : (⟨3, ![a, 1, 1]⟩ : Shape).Idx → α)
    (h : (⟨3, ![a, 1, 1]⟩ : Shape).ShapeCasts ⟨1, ![a]⟩) (k : Fin a) :
    shapeCast ⟨1, ![a]⟩ x h (ix1 k) = x (ix3 k (0 : Fin 1) (0 : Fin 1)) :=
  shapeCast_apply x h _ _ (by
    rw [Shape.rowMajor_val_three, Shape.rowMajor_val_one]
    show (k.val * 1 + 0) * 1 + 0 = k.val
    rw [Nat.add_zero, Nat.mul_one, Nat.add_zero, Nat.mul_one])

/-- The corner [a, 1, 1] of an [a, b, c] array taken from offset (0, 0, 0): entry (k, 0, 0) is the array's. -/
theorem slice_corner_apply {α : Type} {a b c : ℕ} (x : (⟨3, ![a, b, c]⟩ : Shape).Idx → α)
    (h : (⟨3, ![a, b, c]⟩ : Shape).Slices ![0, 0, 0] ⟨3, ![a, 1, 1]⟩) (k : Fin a) (z0 : Fin b) (z1 : Fin c)
    (hz0 : z0.val = 0) (hz1 : z1.val = 0) :
    extractStridedSlice ⟨3, ![a, 1, 1]⟩ ![0, 0, 0] x h (ix3 k (0 : Fin 1) (0 : Fin 1)) = x (ix3 k z0 z1) :=
  extractStridedSlice_apply _ _ _ _ _ (fun ax => by
    match ax with
    | ⟨0, _⟩ => exact (Nat.zero_add _).symm
    | ⟨1, _⟩ => exact hz0
    | ⟨2, _⟩ => exact hz1)

/-- A rank-1 index set is its one coordinate's range … -/
def idxEquiv1 {n : ℕ} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- The host's sum of a vector [a] from an initial scalar: the initial value plus the sum of the entries. -/
theorem hostVecSum_apply {a : ℕ} {φ : FTy} (x : FVec Ideal ⟨1, ![a]⟩ φ) (init : FVec Ideal ⟨0, ![]⟩ φ)
    (h' : (⟨1, ![a]⟩ : Shape).ReducesTo [0] ⟨0, ![]⟩) (hu : 0 < (⟨0, ![]⟩ : Shape).numel)
    (i : (⟨0, ![]⟩ : Shape).Idx) :
    Host.reduceAdd x init h' hu i = init ix0 + ∑ k : Fin a, x (ix1 k) := by
  unfold Host.reduceAdd
  rw [Ideal.hostReduceAdd_def, Ideal.hostReduceAdd_total h' (fun b => b.elim0), sum_idx1]
  exact congrArg (· + ∑ k : Fin a, x (ix1 k)) (congrArg init (funext fun d => d.elim0))

/-- The host operations after the region, as one function of the output array: the corner entries (k, 0, 0) as a
    vector [8], summed from the zero word, divided by the word 0x4CFFF800. -/
def tailOf (o : (⟨S8x8x128, .f32⟩ : BufTy).Contents (Elt Ideal)) : (⟨S_, .f32⟩ : BufTy).Contents (Elt Ideal) :=
  Host.divf (F := Ideal)
    (Host.reduceAdd (F := Ideal)
      (shapeCast S8 (extractStridedSlice S8x1x1 ![0, 0, 0] o Gen.slices_S8x8x128_S8x1x1_0_0_0) Gen.shapeCasts_S8x1x1_S8)
      (constant (F := Ideal) S_ .f32 0x00000000#32) Gen.reducesTo_S8_S_d0 Gen.h_S_)
    (constant (F := Ideal) S_ .f32 0x4CFFF800#32)

/-- The result is the sum of the eight corner entries divided by the constant's value. -/
theorem tail_apply (o : (⟨S8x8x128, .f32⟩ : BufTy).Contents (Elt Ideal)) (i : S_.Idx) :
    tailOf o i = Ideal.div (∑ k : Fin 8, o (ix3 k (0 : Fin 8) (0 : Fin 128))) (Ideal.ofBits .f32 0x4CFFF800#32) := by
  unfold tailOf
  show Ideal.div (Host.reduceAdd (F := Ideal) _ _ Gen.reducesTo_S8_S_d0 Gen.h_S_ i) (Ideal.ofBits .f32 0x4CFFF800#32) = _
  refine congrArg (Ideal.div · (Ideal.ofBits .f32 0x4CFFF800#32)) ?_
  refine (hostVecSum_apply _ _ _ _ i).trans ?_
  rw [constant_apply, Ideal.ofBits_zero_f32, zero_add]
  refine Finset.sum_congr rfl fun k _ => ?_
  refine (shapeCast_a11_a_apply _ _ k).trans ?_
  exact slice_corner_apply o _ k (0 : Fin 8) (0 : Fin 128) rfl rfl

end Cert.Contrast.Tile

end
-- ==== Proof.KI.Blocks.lean ====
/-
  The kernel's input blocks as parts of the whole arrays, over the extended reals.

  The grid is 8 x 16 in row-major order: point 16 i + j handles row block i (rows 1024 i … 1024 i + 1023 of the points,
  of their squared norms set as a column, of their labels set as a column) and column block j (rows 512 j … 512 j + 511
  of the points, and the same columns of the squared norms and of the labels set as rows). Here:
  • what the region finds in the four arrays the host wrote before it: the squared norms as a column and as a row, the
    labels as a column and as a row;
  • each of the six input blocks at a local index as its array at the global index;
  • the row sums of the tile of row block i and column block j, read at row p: the sum over the 512 rows q of the column
    block of the loss of the pair (1024 i + p, 512 j + q) of the whole arrays.
-/
import proofs.«133709_j1580547971173_1_alg».proof.Proof.KI.Kit
import proofs.«133709_j1580547971173_1_alg».proof.Proof.PayRows
import proofs.«133709_j1580547971173_1_alg».proof.Proof.HostEnds
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-! ## The four prefix results as the region finds them -/

/-- The column of squared norms. -/
theorem V_main_v2 (c : Dev nD) :
    V m c main_v2 = shapeCast S8192x1 (Cert.Contrast.Tile.sqVec (m ((c : Thread nD τ).loc main_arg0))) shapeCasts_S8192_S8192x1 := by
  dsimp only [V, V0]; simp only [hostOps0, List.flatten_cons, List.flatten_nil, List.append_nil]; after_results; rfl

/-- The row of squared norms. -/
theorem V_main_v3 (c : Dev nD) :
    V m c main_v3 = shapeCast S1x8192 (Cert.Contrast.Tile.sqVec (m ((c : Thread nD τ).loc main_arg0))) shapeCasts_S8192_S1x8192 := by
  dsimp only [V, V0]; simp only [hostOps0, List.flatten_cons, List.flatten_nil, List.append_nil]; after_results; rfl

/-- The label column. -/
theorem V_main_v4 (c : Dev nD) :
    V m c main_v4 = shapeCast S8192x1 (m ((c : Thread nD τ).loc main_arg1)) shapeCasts_S8192_S8192x1 := by
  dsimp only [V, V0]; simp only [hostOps0, List.flatten_cons, List.flatten_nil, List.append_nil]; after_results; rfl

/-- The label row. -/
theorem V_main_v5 (c : Dev nD) :
    V m c main_v5 = shapeCast S1x8192 (m ((c : Thread nD τ).loc main_arg1)) shapeCasts_S8192_S1x8192 := by
  dsimp only [V, V0]; simp only [hostOps0, List.flatten_cons, List.flatten_nil, List.append_nil]; after_results; rfl

/-! ## The index maps over the grid -/

/-- In row-major order over the 8 x 16 grid, point t is row block t / 16 and column block t % 16: the windows over the
    row block's data have block index (t / 16, 0), those over the column block's (t % 16, 0) or (0, t % 16). -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16 :=
  (by decide +kernel : ∀ t : Fin grid0.N, _)

/-! ## Each input block at a local index is the array at the global index -/

/-- The grid point of row block i and column block j. -/
abbrev pointOf (i : Fin 8) (j : Fin 16) : Fin cfg0.N := ⟨16 * i.val + j.val, by rw [show cfg0.N = 128 from N_0]; omega⟩
/-- Row p of row block i, as a row of the whole array. -/
abbrev rowOf (i : Fin 8) (p : Fin 1024) : Fin 8192 := ⟨1024 * i.val + p.val, by omega⟩
/-- Row q of column block j, as a row of the whole array. -/
abbrev colOf (j : Fin 16) (q : Fin 512) : Fin 8192 := ⟨512 * j.val + q.val, by omega⟩

/-- The row block's points: entry (p, k) of the block is entry (1024 i + p, k) of the array. -/
theorem iblk0_apply (c : Dev nD) (i : Fin 8) (j : Fin 16) (p : Fin 1024) (k : Fin 256) :
    iblk m c 0 (pointOf i j) (ix2 p k) = V m c main_arg0 (ix2 (rowOf i p) k) := by
  obtain ⟨e0, e1, -⟩ := idx_facts (pointOf i j)
  unfold iblk
  rw [View.read_apply]
  show V m c main_arg0 (((cfg0.win 0).blk (pointOf i j)).view.emb (ix2 p k)) = V m c main_arg0 _
  refine congrArg (V m c main_arg0) (funext fun a => Fin.ext ?_)
  match a with
  | ⟨0, _⟩ =>
    show win0_0.index (pointOf i j) (0 : Fin 2) * 1024 + 1 * p.val = 1024 * i.val + p.val
    rw [e0]; show (16 * i.val + j.val) / 16 * 1024 + 1 * p.val = _; omega
  | ⟨1, _⟩ =>
    show win0_0.index (pointOf i j) (1 : Fin 2) * 256 + 1 * k.val = k.val
    rw [e1]; omega

/-- The column block's points: entry (q, k) of the block is entry (512 j + q, k) of the array. -/
theorem iblk1_apply (c : Dev nD) (i : Fin 8) (j : Fin 16) (q : Fin 512) (k : Fin 256) :
    iblk m c 1 (pointOf i j) (ix2 q k) = V m c main_arg0 (ix2 (colOf j q) k) := by
  obtain ⟨-, -, e0, e1, -⟩ := idx_facts (pointOf i j)
  unfold iblk
  rw [View.read_apply]
  show V m c main_arg0 (((cfg0.win 1).blk (pointOf i j)).view.emb (ix2 q k)) = V m c main_arg0 _
  refine congrArg (V m c main_arg0) (funext fun a => Fin.ext ?_)
  match a with
  | ⟨0, _⟩ =>
    show win0_1.index (pointOf i j) (0 : Fin 2) * 512 + 1 * q.val = 512 * j.val + q.val
    rw [e0]; show (16 * i.val + j.val) % 16 * 512 + 1 * q.val = _; omega
  | ⟨1, _⟩ =>
    show win0_1.index (pointOf i j) (1 : Fin 2) * 256 + 1 * k.val = k.val
    rw [e1]; omega

/-- The row block's squared norms: entry (p, 0) of the block is entry (1024 i + p, 0) of the column. -/
theorem iblk2_apply (c : Dev nD) (i : Fin 8) (j : Fin 16) (p : Fin 1024) :
    iblk m c 2 (pointOf i j) (ix2 p (0 : Fin 1)) = V m c main_v2 (ix2 (rowOf i p) (0 : Fin 1)) := by
  obtain ⟨-, -, -, -, e0, e1, -⟩ := idx_facts (pointOf i j)
  unfold iblk
  rw [View.read_apply]
  show V m c main_v2 (((cfg0.win 2).blk (pointOf i j)).view.emb (ix2 p (0 : Fin 1))) = V m c main_v2 _
  refine congrArg (V m c main_v2) (funext fun a => Fin.ext ?_)
  match a with
  | ⟨0, _⟩ =>
    show win0_2.index (pointOf i j) (0 : Fin 2) * 1024 + 1 * p.val = 1024 * i.val + p.val
    rw [e0]; show (16 * i.val + j.val) / 16 * 1024 + 1 * p.val = _; omega
  | ⟨1, _⟩ =>
    show win0_2.index (pointOf i j) (1 : Fin 2) * 1 + 1 * 0 = 0
    rw [e1]

/-- The column block's squared norms: entry (0, q) of the block is entry (0, 512 j + q) of the row. -/
theorem iblk3_apply (c : Dev nD) (i : Fin 8) (j : Fin 16) (q : Fin 512) :
    iblk m c 3 (pointOf i j) (ix2 (0 : Fin 1) q) = V m c main_v3 (ix2 (0 : Fin 1) (colOf j q)) := by
  obtain ⟨-, -, -, -, -, -, e0, e1, -⟩ := idx_facts (pointOf i j)
  unfold iblk
  rw [View.read_apply]
  show V m c main_v3 (((cfg0.win 3).blk (pointOf i j)).view.emb (ix2 (0 : Fin 1) q)) = V m c main_v3 _
  refine congrArg (V m c main_v3) (funext fun a => Fin.ext ?_)
  match a with
  | ⟨0, _⟩ =>
    show win0_3.index (pointOf i j) (0 : Fin 2) * 1 + 1 * 0 = 0
    rw [e0]
  | ⟨1, _⟩ =>
    show win0_3.index (pointOf i j) (1 : Fin 2) * 512 + 1 * q.val = 512 * j.val + q.val
    rw [e1]; show (16 * i.val + j.val) % 16 * 512 + 1 * q.val = _; omega

/-- The row block's labels: entry (p, 0) of the block is entry (1024 i + p, 0) of the label column. -/
theorem iblk4_apply (c : Dev nD) (i : Fin 8) (j : Fin 16) (p : Fin 1024) :
    iblk m c 4 (pointOf i j) (ix2 p (0 : Fin 1)) = V m c main_v4 (ix2 (rowOf i p) (0 : Fin 1)) := by
  obtain ⟨-, -, -, -, -, -, -, -, e0, e1, -⟩ := idx_facts (pointOf i j)
  unfold iblk
  rw [View.read_apply]
  show V m c main_v4 (((cfg0.win 4).blk (pointOf i j)).view.emb (ix2 p (0 : Fin 1))) = V m c main_v4 _
  refine congrArg (V m c main_v4) (funext fun a => Fin.ext ?_)
  match a with
  | ⟨0, _⟩ =>
    show win0_4.index (pointOf i j) (0 : Fin 2) * 1024 + 1 * p.val = 1024 * i.val + p.val
    rw [e0]; show (16 * i.val + j.val) / 16 * 1024 + 1 * p.val = _; omega
  | ⟨1, _⟩ =>
    show win0_4.index (pointOf i j) (1 : Fin 2) * 1 + 1 * 0 = 0
    rw [e1]

/-- The column block's labels: entry (0, q) of the block is entry (0, 512 j + q) of the label row. -/
theorem iblk5_apply (c : Dev nD) (i : Fin 8) (j : Fin 16) (q : Fin 512) :
    iblk m c 5 (pointOf i j) (ix2 (0 : Fin 1) q) = V m c main_v5 (ix2 (0 : Fin 1) (colOf j q)) := by
  obtain ⟨-, -, -, -, -, -, -, -, -, -, e0, e1⟩ := idx_facts (pointOf i j)
  unfold iblk
  rw [View.read_apply]
  show V m c main_v5 (((cfg0.win 5).blk (pointOf i j)).view.emb (ix2 (0 : Fin 1) q)) = V m c main_v5 _
  refine congrArg (V m c main_v5) (funext fun a => Fin.ext ?_)
  match a with
  | ⟨0, _⟩ =>
    show win0_5.index (pointOf i j) (0 : Fin 2) * 1 + 1 * 0 = 0
    rw [e0]
  | ⟨1, _⟩ =>
    show win0_5.index (pointOf i j) (1 : Fin 2) * 512 + 1 * q.val = 512 * j.val + q.val
    rw [e1]; show (16 * i.val + j.val) % 16 * 512 + 1 * q.val = _; omega

/-! ## The row sums of a tile -/

/-- One pair's loss depends only on the values of its five arguments. -/
theorem lossCell_congr {a a' b b' g g' : EReal} {u u' v v' : BitVec 32} (ha : a = a') (hb : b = b') (hg : g = g')
    (hu : u = u') (hv : v = v') : Cert.Contrast.lossCell a b g u v = Cert.Contrast.lossCell a' b' g' u' v' := by
  rw [ha, hb, hg, hu, hv]

/-- At the point of row block i and column block j, the tile's row sums read at row p: the sum over the 512 rows q of
    the column block of the loss of the pair (1024 i + p, 512 j + q) of the whole arrays. -/
theorem rows_apply (c : Dev nD) (i : Fin 8) (j : Fin 16) (p : Fin 1024) :
    k0_pay4 (F := Ideal) (iblk m c 0 (pointOf i j)) (iblk m c 1 (pointOf i j)) (iblk m c 2 (pointOf i j))
        (iblk m c 3 (pointOf i j)) (iblk m c 4 (pointOf i j)) (iblk m c 5 (pointOf i j)) (ix1 p)
      = ∑ q : Fin 512, Cert.Contrast.loss (m ((c : Thread nD τ).loc main_arg0)) (m ((c : Thread nD τ).loc main_arg1))
          (rowOf i p) (colOf j q) := by
  refine (Cert.Contrast.Tile.pay4_apply _ _ _ _ _ _ p).trans ?_
  refine Finset.sum_congr rfl fun q _ => ?_
  refine lossCell_congr ?_ ?_ (Finset.sum_congr rfl fun k _ => ?_) ?_ ?_
  · rw [iblk2_apply, V_main_v2]; exact Cert.Contrast.Tile.sqCol_apply _ (rowOf i p)
  · rw [iblk3_apply, V_main_v3]; exact Cert.Contrast.Tile.sqRow_apply _ (colOf j q)
  · beta_reduce; rw [iblk0_apply, iblk1_apply, V_main_arg0]
  · rw [iblk4_apply, V_main_v4]; exact Cert.Contrast.Tile.labCol_apply _ (rowOf i p)
  · rw [iblk5_apply, V_main_v5]; exact Cert.Contrast.Tile.labRow_apply _ (colOf j q)

end Cert.KernelIdeal.Hand
end
-- ==== Proof.KI.OutArray.lean ====
/-
  The output array from the blocks written back. The output window's block is one row block's [1, 8, 128] slab of the
  [8, 8, 128] array, at block index (i, 0, 0), and it is written back only at the last column block of a row block:
  the point 16·i + 15 of the 8 × 16 row-major grid. Those eight slabs tile the array, so after the run the array at
  (k, a, b) is what the point 16·k + 15 left in the window's staging buffer, at (0, a, b) — for any proof data, given
  only what its staging buffer holds after each point.
-/
import proofs.«133709_j1580547971173_1_alg».proof.Proof.KI.Kit
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

/-- The output window's block index over the grid: the row block on the first axis, zero on the other two. -/
theorem idx_out : ∀ t : Fin cfg0.N,
    win0_6.index t (0 : Fin 3) = t.val / 16 ∧ win0_6.index t (1 : Fin 3) = 0 ∧ win0_6.index t (2 : Fin 3) = 0 :=
  (by decide +kernel : ∀ t : Fin grid0.N, _)

/-- An index of the output array is in point `t`'s block iff each coordinate is in the block's range on its axis. -/
theorem mem_blk_out (t : Fin cfg0.N) (y : S8x8x128.Idx) :
    y ∈ ((cfg0.win 6).blk t).view.set ↔ ∀ a : Fin 3, win0_6.index t a * S1x8x128.size a ≤ (y a).val
      ∧ (y a).val < win0_6.index t a * S1x8x128.size a + S1x8x128.size a := by
  show y ∈ ((View.whole main_v6).slice (win0_6.rect t)).set ↔ _
  rw [View.set_slice_whole, Rect.mem_set_unit]
  exact Iff.rfl

/-- The last point of row block `k`: its last column block. -/
abbrev lastOf (k : ℕ) (hk : k < 8) : Fin cfg0.N := ⟨16 * k + 15, by rw [show cfg0.N = 128 from N_0]; omega⟩

/-- THE OUTPUT ARRAY after the run: row block `k`'s slab is what the last point of that row block left in the output
    window's staging buffer. -/
theorem out_array {c : Dev nD} (dat : Dat τ (Elt F) Unit ℕ (UR sig nD τ) ℕ cfg0 c)
    (o : Fin cfg0.N → Vec F S1x8x128 .f32) (hafter : ∀ t, dat.after 6 t = o t) :
    dat.arrAt 6 cfg0.N = fun y : S8x8x128.Idx =>
      o (lastOf (y 0).val (y 0).isLt) (ix3 (0 : Fin 1) ⟨(y 1).val, (y 1).isLt⟩ ⟨(y 2).val, (y 2).isLt⟩) := by
  refine dat.arrAt_eq_of_cover 6 _ (fun t hf => ?_) (fun (y : S8x8x128.Idx) => ?_)
  · -- what a flushing point writes back is its block of that function
    have h15 : t.val % 16 = 15 := (flush0_6 t).mp hf
    obtain ⟨e0, e1, e2⟩ := idx_out t
    show (cfg0.win 6).cut (grid0.coords t) (dat.after 6 t) = _
    rw [hafter]
    funext x
    show o t x = o (lastOf ((((cfg0.win 6).blk t).view.emb x) 0).val ((((cfg0.win 6).blk t).view.emb x) 0).isLt)
      (ix3 (0 : Fin 1) ⟨((((cfg0.win 6).blk t).view.emb x) 1).val, ((((cfg0.win 6).blk t).view.emb x) 1).isLt⟩
        ⟨((((cfg0.win 6).blk t).view.emb x) 2).val, ((((cfg0.win 6).blk t).view.emb x) 2).isLt⟩)
    have hx0 : (x 0).val < 1 := (x 0).isLt
    have c0 : ((((cfg0.win 6).blk t).view.emb x) 0).val = t.val / 16 := by
      show win0_6.index t (0 : Fin 3) * 1 + 1 * (x 0).val = _; omega
    have c1 : ((((cfg0.win 6).blk t).view.emb x) 1).val = (x 1).val := by
      show win0_6.index t (1 : Fin 3) * 8 + 1 * (x 1).val = _; omega
    have c2 : ((((cfg0.win 6).blk t).view.emb x) 2).val = (x 2).val := by
      show win0_6.index t (2 : Fin 3) * 128 + 1 * (x 2).val = _; omega
    have hT : lastOf ((((cfg0.win 6).blk t).view.emb x) 0).val ((((cfg0.win 6).blk t).view.emb x) 0).isLt = t :=
      Fin.ext (by show 16 * ((((cfg0.win 6).blk t).view.emb x) 0).val + 15 = t.val; rw [c0]; omega)
    have hJ : (ix3 (0 : Fin 1) ⟨((((cfg0.win 6).blk t).view.emb x) 1).val, ((((cfg0.win 6).blk t).view.emb x) 1).isLt⟩
        ⟨((((cfg0.win 6).blk t).view.emb x) 2).val, ((((cfg0.win 6).blk t).view.emb x) 2).isLt⟩ : S1x8x128.Idx) = x :=
      funext fun a => Fin.ext (by
        match a with
        | ⟨0, _⟩ => show 0 = (x 0).val; omega
        | ⟨1, _⟩ => exact c1
        | ⟨2, _⟩ => exact c2)
    exact (congr (congrArg o hT) hJ).symm
  · -- every index is in the block of the last point of its row block
    have hy0 : (y 0).val < 8 := (y 0).isLt
    have hy1 : (y 1).val < 8 := (y 1).isLt
    have hy2 : (y 2).val < 128 := (y 2).isLt
    obtain ⟨T, hT⟩ : ∃ T : Fin cfg0.N, T.val = 16 * (y 0).val + 15 := ⟨lastOf (y 0).val (y 0).isLt, rfl⟩
    obtain ⟨e0, e1, e2⟩ := idx_out T
    refine ⟨T, (flush0_6 T).mpr (by omega), ?_⟩
    rw [mem_blk_out]
    intro a
    match a with
    | ⟨0, _⟩ =>
      show win0_6.index T (0 : Fin 3) * 1 ≤ (y 0).val ∧ (y 0).val < win0_6.index T (0 : Fin 3) * 1 + 1
      omega
    | ⟨1, _⟩ =>
      show win0_6.index T (1 : Fin 3) * 8 ≤ (y 1).val ∧ (y 1).val < win0_6.index T (1 : Fin 3) * 8 + 8
      omega
    | ⟨2, _⟩ =>
      show win0_6.index T (2 : Fin 3) * 128 ≤ (y 2).val ∧ (y 2).val < win0_6.index T (2 : Fin 3) * 128 + 128
      omega

/-- The output array at `(k, a, b)`: what the last point of row block `k` left at `(0, a, b)`. -/
theorem out_final {c : Dev nD} (dat : Dat τ (Elt F) Unit ℕ (UR sig nD τ) ℕ cfg0 c)
    (o : Fin cfg0.N → Vec F S1x8x128 .f32) (hafter : ∀ t, dat.after 6 t = o t) (k : Fin 8) (a : Fin 8) (b : Fin 128) :
    dat.arrAt 6 cfg0.N (ix3 k a b) = o (lastOf k.val k.isLt) (ix3 (0 : Fin 1) a b) :=
  congrFun (out_array dat o hafter) (ix3 k a b)

end Cert.KernelIdeal.Hand

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.PayAcc.lean ====
/-
  The accumulator's three payloads read at an index, over the extended reals.

  Each grid point adds the total of its tile's row sums to every entry of an [8, 128] scratch array; the scratch is
  zeroed at the first column block of a row block, and the output block [1, 8, 128] of a row block is the scratch with a
  leading unit axis. Read at an entry:
  • the accumulation step is the scratch entry plus the sum of the 1024 row sums — the [1024] vector of row sums is set
    as a column [1024, 1], summed along its first axis into one number, and that number is spread over [8, 128];
  • the output block's entry (0, a, b) is the scratch's entry (a, b);
  • the reset array is 0 everywhere.
-/
import proofs.«133709_j1580547971173_1_alg».proof.Proof.Gen.KernelIdeal.Skeleton
import proofs.«133709_j1580547971173_1_alg».proof.Proof.LibAxisFolds
import proofs.«133709_j1580547971173_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Contrast.Tile

open Idealize.ShloMosaic Idealize.ShloMosaic.ValueIdx Cert.KernelIdeal

/-- A [1, 1] array spread over [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The accumulation step at entry (a, b): the scratch entry plus the total of the 1024 row sums. -/
theorem pay1_apply (v36 : FVec Ideal S1024 .f32) (acc : Vec Ideal S8x128 .f32) (a : Fin 8) (b : Fin 128) :
    Gen.k0_pay1 (F := Ideal) v36 acc (ix2 a b) = acc (ix2 a b) + ∑ p : Fin 1024, v36 (ix1 p) := by
  unfold Gen.k0_pay1
  rw [shapeCast_self, addf_apply]
  refine congrArg (acc (ix2 a b) + ·) ?_
  refine (broadcastTo_11_ab_apply _ _ a b).trans ?_
  rw [shapeCast_self]
  refine (shapeCast_a_1a_apply _ _ (0 : Fin 1) (0 : Fin 1)).trans ?_
  refine (Cert.Lib.AxisFolds.firstSum_apply _ _ _ _ _ (0 : Fin 1)).trans ?_
  exact Finset.sum_congr rfl fun p _ => Cert.Lib.Keepdims.shapeCast_a_a1_apply _ _ p (0 : Fin 1)

/-- The output block's entry (0, a, b) is the scratch's entry (a, b). -/
theorem pay2_apply (v : Vec Ideal S8x128 .f32) (a : Fin 8) (b : Fin 128) :
    Gen.k0_pay2 (F := Ideal) v (ix3 (0 : Fin 1) a b) = v (ix2 a b) := by
  unfold Gen.k0_pay2
  exact shapeCast_ab_1ab_apply v _ (0 : Fin 1) a b

/-- The reset array is 0 at every entry. -/
theorem pay3_apply (a : Fin 8) (b : Fin 128) : Gen.k0_pay3 (F := Ideal) (ix2 a b) = 0 := by
  unfold Gen.k0_pay3
  rw [shapeCast_self]
  exact Ideal.ofBits_zero_f32

end Cert.Contrast.Tile

end
-- ==== Proof.Accumulate.lean ====
/-
  The scratch array over the sixteen column blocks of a row block, over the extended reals.

  Grid point n = 16·i + j handles row block i and column block j. At j = 0 the scratch is reset to zero and the point
  adds the total of its tile's row sums; at every later j the point adds its total to what the point before left. So
  after the last column block of row block i every scratch entry holds the sum, over the sixteen column blocks, of the
  tile totals. Stated abstractly: for any sequence of row-sum vectors and any sequence of scratch contents related by
  the reset step (at the multiples of 16) and the accumulation step (elsewhere).
-/
import proofs.«133709_j1580547971173_1_alg».proof.Proof.PayAcc

noncomputable section

open scoped BigOperators

namespace Cert.Contrast.Tile

open Idealize.ShloMosaic Idealize.ShloMosaic.ValueIdx Cert.KernelIdeal

/-- Within row block i, after column blocks 0 … k (k < 16) every scratch entry is the sum of their tile totals. -/
theorem acc_partial (rows : ℕ → (S1024.Idx → EReal)) (acc : ℕ → (S8x128.Idx → EReal))
    (h0 : ∀ n, n % 16 = 0 → acc (n + 1) = Gen.k0_pay1 (F := Ideal) (rows n) (Gen.k0_pay3 (F := Ideal)))
    (hs : ∀ n, n % 16 ≠ 0 → acc (n + 1) = Gen.k0_pay1 (F := Ideal) (rows n) (acc n))
    (i : ℕ) (a : Fin 8) (b : Fin 128) :
    ∀ k : ℕ, k < 16 →
      acc (16 * i + k + 1) (ix2 a b) = ∑ j ∈ Finset.range (k + 1), ∑ p : Fin 1024, rows (16 * i + j) (ix1 p)
  | 0, _ => by
    have e : acc (16 * i + 0 + 1) = Gen.k0_pay1 (F := Ideal) (rows (16 * i)) (Gen.k0_pay3 (F := Ideal)) :=
      h0 (16 * i) (Nat.mul_mod_right 16 i)
    rw [e, pay1_apply, pay3_apply, zero_add]
    exact (Finset.sum_range_one fun j => ∑ p : Fin 1024, rows (16 * i + j) (ix1 p)).symm
  | k + 1, hk => by
    have hne : (16 * i + (k + 1)) % 16 ≠ 0 := by omega
    have e : acc (16 * i + (k + 1) + 1)
        = Gen.k0_pay1 (F := Ideal) (rows (16 * i + (k + 1))) (acc (16 * i + k + 1)) := hs (16 * i + (k + 1)) hne
    rw [e, pay1_apply, acc_partial rows acc h0 hs i a b k (Nat.lt_of_succ_lt hk), Finset.sum_range_succ _ (k + 1)]

/-- After the last column block of row block i every scratch entry is the sum over the sixteen column blocks j of the
    total of the row sums of tile (i, j). -/
theorem acc_block (rows : ℕ → (S1024.Idx → EReal)) (acc : ℕ → (S8x128.Idx → EReal))
    (h0 : ∀ n, n % 16 = 0 → acc (n + 1) = Gen.k0_pay1 (F := Ideal) (rows n) (Gen.k0_pay3 (F := Ideal)))
    (hs : ∀ n, n % 16 ≠ 0 → acc (n + 1) = Gen.k0_pay1 (F := Ideal) (rows n) (acc n)) :
    ∀ (i : ℕ) (a : Fin 8) (b : Fin 128),
      acc (16 * i + 16) (ix2 a b) = ∑ j : Fin 16, ∑ p : Fin 1024, rows (16 * i + j.val) (ix1 p) := fun i a b => by
  rw [← Finset.sum_range fun j => ∑ p : Fin 1024, rows (16 * i + j) (ix1 p)]
  exact acc_partial rows acc h0 hs i a b 15 (by decide)

end Cert.Contrast.Tile

end
-- ==== Proof.BlockSums.lean ====
/-
  Regrouping a finite double sum by tiles, in any additive commutative monoid (so in the extended reals with no
  finiteness condition).

  `sum_blocks`: a sum over `n = a·b` consecutive indices is the sum over the `a` blocks of the sum over the `b` places of
  a block, index `b·i + p`.
  `sum_tiles`: the sum over the 8192 × 8192 pairs is the sum over the 8 × 16 tiles (1024 rows by 512 columns) of the sum
  over the places of a tile, indices `1024·i + p` and `512·j + q`.
-/
import Mathlib.Algebra.BigOperators.Fin
import Mathlib.Logic.Equiv.Fin.Basic

open scoped BigOperators

namespace Cert.Contrast

/-- A sum over `n = a·b` indices, block by block: `∑ i < a, ∑ p < b, g (b·i + p) = ∑ P < n, g P`. The bound of each
    index `b·i + p` is taken as a hypothesis, so the lemma applies whatever proof the caller's term carries. -/
theorem sum_blocks {M : Type*} [AddCommMonoid M] (a b n : ℕ) (h : a * b = n) (g : Fin n → M)
    (hb : ∀ (i : Fin a) (p : Fin b), b * i.val + p.val < n) :
    (∑ i : Fin a, ∑ p : Fin b, g ⟨b * i.val + p.val, hb i p⟩) = ∑ P : Fin n, g P := by
  subst h
  rw [← Equiv.sum_comp finProdFinEquiv g, Fintype.sum_prod_type]
  refine Finset.sum_congr rfl fun i _ => Finset.sum_congr rfl fun p _ => ?_
  refine congrArg g (Fin.ext ?_)
  show b * i.val + p.val = p.val + b * i.val
  exact Nat.add_comm _ _

/-- The sum over all pairs `(P, Q)` of 8192 × 8192, tile by tile: row blocks of 1024, column blocks of 512. -/
theorem sum_tiles {M : Type*} [AddCommMonoid M] (f : Fin 8192 → Fin 8192 → M) :
    (∑ i : Fin 8, ∑ j : Fin 16, ∑ p : Fin 1024, ∑ q : Fin 512,
        f ⟨1024 * i.val + p.val, by omega⟩ ⟨512 * j.val + q.val, by omega⟩)
      = ∑ P : Fin 8192, ∑ Q : Fin 8192, f P Q := by
  calc (∑ i : Fin 8, ∑ j : Fin 16, ∑ p : Fin 1024, ∑ q : Fin 512,
          f ⟨1024 * i.val + p.val, by omega⟩ ⟨512 * j.val + q.val, by omega⟩)
      = ∑ i : Fin 8, ∑ p : Fin 1024, ∑ j : Fin 16, ∑ q : Fin 512,
          f ⟨1024 * i.val + p.val, by omega⟩ ⟨512 * j.val + q.val, by omega⟩ :=
        Finset.sum_congr rfl fun i _ => Finset.sum_comm
    _ = ∑ i : Fin 8, ∑ p : Fin 1024, ∑ Q : Fin 8192, f ⟨1024 * i.val + p.val, by omega⟩ Q :=
        Finset.sum_congr rfl fun i _ => Finset.sum_congr rfl fun p _ =>
          sum_blocks 16 512 8192 rfl (fun Q => f ⟨1024 * i.val + p.val, by omega⟩ Q) (fun j q => by omega)
    _ = ∑ P : Fin 8192, ∑ Q : Fin 8192, f P Q :=
        sum_blocks 8 1024 8192 rfl (fun P => ∑ Q : Fin 8192, f P Q) (fun i p => by omega)

end Cert.Contrast
-- ==== Proof.KI.Value.lean ====
/-
  The contrastive-loss kernel's result on the extended reals.  The accumulator after a point is the point's tile total
  added to a zeroed accumulator at the first column block of a row block and to what the point before left otherwise,
  so after the last column block of row block k it holds the sum of that row block's sixteen tile totals; that is what
  the output's block k holds, the host lines take entry (k, 0, 0) of each, add the eight and divide.  A tile's row sums
  are sums of the pair loss over the tile's columns, so the eight entries add up to the sum of the loss over all pairs,
  regrouped tile by tile — the reference's total — and the quotients agree.
-/
import proofs.«133709_j1580547971173_1_alg».proof.Proof.KI.Launch
import proofs.«133709_j1580547971173_1_alg».proof.Proof.KI.Pieces
import proofs.«133709_j1580547971173_1_alg».proof.Proof.KI.Blocks
import proofs.«133709_j1580547971173_1_alg».proof.Proof.KI.OutArray
import proofs.«133709_j1580547971173_1_alg».proof.Proof.Accumulate
import proofs.«133709_j1580547971173_1_alg».proof.Proof.HostEnds
import proofs.«133709_j1580547971173_1_alg».proof.Proof.BlockSums
import proofs.«133709_j1580547971173_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Contrast Cert.Contrast.Tile

variable (m : (ℓ : Loc nD τ sig) → Buf (Elt Ideal) ℓ) (ρ : Dev nD → PrngReg)

/-! ## The accumulation over the points -/

/-- The tile's row sums at position `n` of the grid (zero past the last point: never read). -/
def rowsT (c : Dev nD) (n : ℕ) : FVec Ideal S1024 .f32 :=
  if h : n < cfg0.N then
    k0_pay4 (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩)
  else fun _ => 0

/-- The accumulator after `n` points: the point's total added to zeros at a first column block, else to what the
    point before left. -/
def accT (c : Dev nD) : ℕ → FVec Ideal S8x128 .f32
  | 0 => k0_pay3 (F := Ideal)
  | n + 1 => k0_pay1 (F := Ideal) (rowsT m c n) (if n % 16 = 0 then k0_pay3 (F := Ideal) else accT c n)

theorem accT_first (c : Dev nD) (n : ℕ) (h : n % 16 = 0) :
    accT m c (n + 1) = k0_pay1 (F := Ideal) (rowsT m c n) (k0_pay3 (F := Ideal)) := by
  show k0_pay1 (F := Ideal) (rowsT m c n) (if n % 16 = 0 then k0_pay3 (F := Ideal) else accT m c n) = _
  rw [if_pos h]

theorem accT_later (c : Dev nD) (n : ℕ) (h : n % 16 ≠ 0) :
    accT m c (n + 1) = k0_pay1 (F := Ideal) (rowsT m c n) (accT m c n) := by
  show k0_pay1 (F := Ideal) (rowsT m c n) (if n % 16 = 0 then k0_pay3 (F := Ideal) else accT m c n) = _
  rw [if_neg h]

theorem rowsT_of_lt (c : Dev nD) (t : Fin cfg0.N) :
    rowsT m c t.val = k0_pay4 (F := Ideal) (iblk m c 0 t) (iblk m c 1 t) (iblk m c 2 t) (iblk m c 3 t) (iblk m c 4 t) (iblk m c 5 t) := by
  unfold rowsT; rw [dif_pos t.isLt]

/-- What the frame run found at each point is this accumulation: the accumulator, and the output's buffer as its copy. -/
theorem outsAt_eq (c : Dev nD) : ∀ (n : ℕ) (hn : n < cfg0.N),
    outsAt m c n hn = (k0_pay2 (F := Ideal) (accT m c (n + 1)), accT m c (n + 1)) := by
  intro n
  induction n with
  | zero =>
    intro hn
    rw [show outsAt m c 0 hn = ptA m c ⟨0, hn⟩ (Nat.zero_mod _) from rfl]
    unfold ptA
    rw [outA_eq, soutA_eq, accT_first m c 0 (Nat.zero_mod _), rowsT_of_lt m c ⟨0, hn⟩]
  | succ n ih =>
    intro hn
    by_cases h0 : (n + 1) % 16 = 0
    · rw [outsAt_A m c ⟨n + 1, hn⟩ h0]
      unfold ptA
      rw [outA_eq, soutA_eq, accT_first m c (n + 1) h0, rowsT_of_lt m c ⟨n + 1, hn⟩]
    · rw [outsAt_B m c ⟨n + 1, hn⟩ h0]
      unfold ptB
      rw [outB_eq, soutB_eq, accT_later m c (n + 1) h0, rowsT_of_lt m c ⟨n + 1, hn⟩]
      have e := ih (Nat.lt_of_succ_lt hn)
      simp only [Nat.add_sub_cancel] at e ⊢
      rw [e]

/-! ## The output array and the result -/

/-- Entry (k, 0, 0) of the output array after the run: the loss summed over row block k's rows and all columns,
    column block by column block. -/
theorem out_value (c : Dev nD) (k : Fin 8) :
    (dats m 0 c).arrAt 6 cfg0.N (ix3 k (0 : Fin 8) (0 : Fin 128))
      = ∑ j : Fin 16, ∑ p : Fin 1024, ∑ q : Fin 512,
          loss (m ((c : Thread nD τ).loc main_arg0)) (m ((c : Thread nD τ).loc main_arg1))
            ⟨1024 * k.val + p.val, by omega⟩ ⟨512 * j.val + q.val, by omega⟩ := by
  have hlast : 16 * k.val + 15 < cfg0.N := by rw [show cfg0.N = 128 from N_0]; omega
  rw [out_final (dats m 0 c) (fun t => (outsAt m c t.val t.isLt).1) (after6 m c) k (0 : Fin 8) (0 : Fin 128)]
  show (outsAt m c (16 * k.val + 15) hlast).1 (ix3 (0 : Fin 1) (0 : Fin 8) (0 : Fin 128)) = _
  rw [outsAt_eq m c (16 * k.val + 15) hlast]
  show k0_pay2 (F := Ideal) (accT m c (16 * k.val + 16)) (ix3 (0 : Fin 1) (0 : Fin 8) (0 : Fin 128)) = _
  rw [pay2_apply, acc_block (rowsT m c) (accT m c) (accT_first m c) (accT_later m c) k.val (0 : Fin 8) (0 : Fin 128)]
  refine Finset.sum_congr rfl fun j _ => Finset.sum_congr rfl fun p _ => ?_
  have hlt : 16 * k.val + j.val < cfg0.N := by rw [show cfg0.N = 128 from N_0]; omega
  rw [rowsT_of_lt m c ⟨16 * k.val + j.val, hlt⟩]
  exact rows_apply m c k j p

/-- The lines after the region compute the quotient of the eight entries' sum from the output array. -/
theorem V'_main_v10 (c : Dev nD) : V' m c main_v10 = tailOf ((dats m 0 c).arrAt 6 cfg0.N) := by
  have e : V' m c main_v10 = tailOf (Wx m c (Proc.devRef .tc main_v6)) := by
    unfold V'
    simp only [hostOps1, List.flatten_cons, List.flatten_nil, List.append_nil]
    after_results
    generalize Wx m c (Proc.devRef .tc main_v6) = o
    rfl
  rw [e, Wx_out]

/-- An output array whose entry (k, 0, 0) is row block k's loss, summed column block by column block, goes through the
    lines after the region to the sum of the loss over all pairs, divided by the program's constant: the sum regrouped
    tile by tile. -/
theorem result_of_entries (x : (⟨2, ![8192, 256]⟩ : Shape).Idx → EReal) (t : (⟨1, ![8192]⟩ : Shape).Idx → BitVec 32)
    (o : (⟨S8x8x128, .f32⟩ : BufTy).Contents (Elt Ideal))
    (ho : ∀ k : Fin 8, o (ix3 k (0 : Fin 8) (0 : Fin 128))
      = ∑ j : Fin 16, ∑ p : Fin 1024, ∑ q : Fin 512, loss x t ⟨1024 * k.val + p.val, by omega⟩ ⟨512 * j.val + q.val, by omega⟩) :
    tailOf o = fun _ => result x t := by
  funext i
  rw [tail_apply, Finset.sum_congr rfl fun k _ => ho k]
  unfold result total
  exact congrArg (fun z => Ideal.div z (Ideal.ofBits .f32 0x4CFFF800#32)) (sum_tiles (loss x t))

/-- THE KERNEL'S RESULT: the sum of the pair loss over all pairs, divided by the program's constant. -/
theorem kernel_value (c : Dev nD) :
    V' m c main_v10 = fun _ => result (m ((c : Thread nD τ).loc main_arg0)) (m ((c : Thread nD τ).loc main_arg1)) := by
  rw [V'_main_v10]
  exact result_of_entries _ _ _ (out_value m c)

end Cert.KernelIdeal.Hand

end
-- ==== Proof.RefValue.lean ====
/-
  The reference program computes the specification: its result, read one operation at a time from the generated
  index-by-index lemmas, is `Cert.Contrast.result`. The squared norms are the row sums of `x * x`, the inner products
  the matrix product of `x` with its transpose, the two broadcasts place the row's and the column's squared norm at a
  pair, the label comparison is the same-label indicator, and the sum over both axes is the double sum over the pairs.
-/
import proofs.«133709_j1580547971173_1_alg».proof.Proof.Gen.ReferenceIdeal.Read
import proofs.«133709_j1580547971173_1_alg».proof.Proof.Spec

noncomputable section

open scoped BigOperators

namespace Cert.Contrast.Ref

open Cert.ReferenceIdeal Cert.ReferenceIdeal.Read Idealize.ShloMosaic Idealize.ShloMosaic.ValueIdx

/-! ## Where each layout operation reads, at a pair `(P, Q)` -/

/-- The matrix product's left operand at the pair `(P, Q)` and place `k` is `x[P, k]`. -/
theorem left_of_pair (P Q : Fin 8192) (k : Fin 256) : lidx_main_v3 (ix2 P Q) k = ix2 P k :=
  funext fun a => Fin.ext (by match a with | ⟨0, _⟩ => rfl | ⟨1, _⟩ => rfl)

/-- Its right operand, the transpose, there is `x[Q, k]`. -/
theorem right_of_pair (P Q : Fin 8192) (k : Fin 256) : idx_main_v2 (ridx_main_v3 (ix2 P Q) k) = ix2 Q k :=
  funext fun a => Fin.ext (by match a with | ⟨0, _⟩ => rfl | ⟨1, _⟩ => rfl)

/-- The row sum at `P` reads `x[P, k]`. -/
theorem row_of_point (P : Fin 8192) (k : Fin 256) : idx_main_v1 (ix1 P) k = ix2 P k :=
  funext fun a => Fin.ext (by match a with | ⟨0, _⟩ => rfl | ⟨1, _⟩ => rfl)

/-- The column broadcast of the squared norms reads the row's point `P` … -/
theorem norm_first (P Q : Fin 8192) : idx_main_v4 (idx_main_v6 (ix2 P Q)) = ix1 P :=
  funext fun a => Fin.ext (by match a with | ⟨0, _⟩ => rfl)

/-- … and the row broadcast the column's point `Q`. -/
theorem norm_second (P Q : Fin 8192) : idx_main_v5 (idx_main_v7 (ix2 P Q)) = ix1 Q :=
  funext fun a => Fin.ext (by match a with | ⟨0, _⟩ => rfl)

/-- The row broadcast of the labels reads the column's point `Q` … -/
theorem label_second (P Q : Fin 8192) : idx_main_v12 (idx_main_v14 (ix2 P Q)) = ix1 Q :=
  funext fun a => Fin.ext (by match a with | ⟨0, _⟩ => rfl)

/-- … and the column broadcast the row's point `P`. -/
theorem label_first (P Q : Fin 8192) : idx_main_v13 (idx_main_v15 (ix2 P Q)) = ix1 P :=
  funext fun a => Fin.ext (by match a with | ⟨0, _⟩ => rfl)

/-! ## The three ingredients -/

/-- The row sums of `x * x` are the squared norms. -/
theorem sq_eq (x : (⟨S8192x256, .f32⟩ : BufTy).Contents (Elt Ideal)) (P : Fin 8192) :
    val_main_v1 (F := Ideal) x (ix1 P) = sq x P := by
  rw [val_main_v1_apply, val_main_cst_apply]
  simp only [val_main_v0_apply, row_of_point, Ideal.ofBits_def, Ideal.mulf_def, Ideal.ofBits_zero_f32, zero_add]
  rfl

/-- The product of `x` with its transpose is the table of inner products. -/
theorem gram_eq (x : (⟨S8192x256, .f32⟩ : BufTy).Contents (Elt Ideal)) (P Q : Fin 8192) :
    val_main_v3 (F := Ideal) x (ix2 P Q) = gram x P Q := by
  rw [val_main_v3_apply]
  simp only [val_main_v2_apply, left_of_pair, right_of_pair]
  rfl

/-- The loss array at the pair `(P, Q)` is the specification's loss of the pair. -/
theorem cell_eq (x : (⟨S8192x256, .f32⟩ : BufTy).Contents (Elt Ideal)) (t : (⟨S8192, .i32⟩ : BufTy).Contents (Elt Ideal))
    (P Q : Fin 8192) : val_main_v26 (F := Ideal) x t (ix2 P Q) = loss x t P Q := by
  simp only [val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_v9_apply, val_main_v8_apply, val_main_v7_apply,
    val_main_v6_apply, val_main_v5_apply, val_main_v4_apply,
    val_main_cst_0_apply, val_main_cst_1_apply, val_main_cst_2_apply, val_main_cst_3_apply,
    norm_first, norm_second, label_first, label_second, sq_eq, gram_eq, mask_ref,
    Ideal.ofBits_def, Ideal.addf_def, Ideal.subf_def, Ideal.mulf_def, Ideal.maximumf_def, Ideal.ofBits_zero_f32]
  rfl

/-! ## The reference's result -/

/-- The reference's result is the specification's. -/
theorem ref_eq (x : (⟨S8192x256, .f32⟩ : BufTy).Contents (Elt Ideal)) (t : (⟨S8192, .i32⟩ : BufTy).Contents (Elt Ideal)) :
    Cert.ReferenceIdeal.Read.val_main_v28 (F := Ideal) x t = fun _ => Cert.Contrast.result x t := by
  funext i
  rw [val_main_v28_apply, val_main_v27_apply, val_main_cst_5_apply, val_main_cst_4_apply, sum_idx2]
  simp only [cell_eq, Ideal.hostDivf_def, Ideal.ofBits_def, Ideal.ofBits_zero_f32, zero_add]
  rfl

end Cert.Contrast.Ref

end
-- ==== Proof.lean ====
/-
  The pairwise contrastive loss on a grid of tiles against the same loss over the whole pair matrix.

  Both programs form, for every pair of rows (P, Q) of the input matrix, the squared distance
  d = |x_P|² + |x_Q|² − 2⟨x_P, x_Q⟩ and the loss  r·d + (1 − r)·max(½ − d, 0)  with r = 1 when the two labels agree and 0
  otherwise, add the loss over all pairs and divide by the same constant.  The kernel walks an 8 × 16 grid of tiles
  (1024 rows by 512 columns): per tile it forms the loss tile, its row sums and their total, adds the total into an
  accumulator that it zeroes at the first column block of each row block, and copies the accumulator to the row
  block's output block; the host adds one entry per row block and divides.  The reference forms the whole 8192 × 8192
  loss matrix and adds it up.  On the extended reals both are the sum of the loss over all pairs — regrouped tile by
  tile on the kernel's side, which addition's commutativity and associativity allow without any finiteness — over the
  same divisor.

  The frames: the kernel reads the input matrix through two windows, so its buffer's share is dealt in halves between
  them for the region and put together again after it; the accumulator is carried from point to point in the region's
  invariant.  The reference is a straight line of host operations.  The idealization rewrote nothing.
-/
import proofs.«133709_j1580547971173_1_alg».proof.Defs
import proofs.«133709_j1580547971173_1_alg».proof.Proof.Gen.Kernel
import proofs.«133709_j1580547971173_1_alg».proof.Proof.Gen.Kernel.Skeleton
import proofs.«133709_j1580547971173_1_alg».proof.Proof.Gen.Kernel.Launch
import proofs.«133709_j1580547971173_1_alg».proof.Proof.Gen.Kernel.Points
import proofs.«133709_j1580547971173_1_alg».proof.Proof.Gen.KernelIdeal
import proofs.«133709_j1580547971173_1_alg».proof.Proof.Gen.KernelIdeal.Skeleton
import proofs.«133709_j1580547971173_1_alg».proof.Proof.Gen.KernelIdeal.Launch
import proofs.«133709_j1580547971173_1_alg».proof.Proof.Gen.KernelIdeal.Points
import proofs.«133709_j1580547971173_1_alg».proof.Proof.Gen.ReferenceIdeal
import proofs.«133709_j1580547971173_1_alg».proof.Proof.Gen.ReferenceIdeal.Run
import proofs.«133709_j1580547971173_1_alg».proof.Proof.Gen.ReferenceIdeal.Read
import proofs.«133709_j1580547971173_1_alg».proof.Proof.Gen.Pre_finite_inputs
import proofs.«133709_j1580547971173_1_alg».proof.Proof.K.Launch
import proofs.«133709_j1580547971173_1_alg».proof.Proof.KI.Value
import proofs.«133709_j1580547971173_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs to the end, faults nowhere and leaves its arguments unchanged. -/
theorem frame_p : Cert.frame_Kernel := fun m ρ _ => Cert.Kernel.Hand.frame m ρ

/-- So does its reading on the extended reals. -/
theorem frame_pi : Cert.frame_KernelIdeal := fun m ρ _ => Cert.KernelIdeal.Hand.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end at the sum of the pair loss over
    all pairs divided by the program's constant, and leave their arguments unchanged. -/
theorem algebraic : Cert.algebraic_KernelIdeal_ReferenceIdeal := by
  intro m ρ m' ρ' _ hagree
  refine ⟨fun c => fun _ => Cert.Contrast.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main m ρ)
    · exact ((h c).2 Cert.KernelIdeal.main_v10 (Pipeline.mem_restRefs_of Cert.KernelIdeal.main_v10 rfl (by decide))).trans
        (Cert.KernelIdeal.Hand.kernel_value m c)
    · exact ((h c).1 0).trans ((Cert.KernelIdeal.Hand.arrAt_in m c 0 rfl _).trans (Cert.KernelIdeal.Hand.V_main_arg0 m c))
    · exact ((h c).2 Cert.KernelIdeal.main_arg1 (Pipeline.mem_restRefs_of Cert.KernelIdeal.main_arg1 rfl (by decide))).trans
        (Cert.KernelIdeal.Hand.V'_main_arg1 m c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v28_eq, Cert.Contrast.Ref.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
